-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S2x393216 : Shape := ⟨2, ![2, 393216]⟩
abbrev S12288x16 : Shape := ⟨2, ![12288, 16]⟩
abbrev S16 : Shape := ⟨1, ![16]⟩
abbrev S16x12288 : Shape := ⟨2, ![16, 12288]⟩
abbrev S12288 : Shape := ⟨1, ![12288]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_
  bcast_S_S16 : S_.BroadcastsInDim S16 (![] : Fin 0 → Fin S16.rank)
  reducesTo_S16_S_d0 : S16.ReducesTo [0] S_
  bcast_S_S16x12288 : S_.BroadcastsInDim S16x12288 (![] : Fin 0 → Fin S16x12288.rank)
  reducesTo_S16x12288_S_d0_1 : S16x12288.ReducesTo [0, 1] S_
  bcast_S_S12288 : S_.BroadcastsInDim S12288 (![] : Fin 0 → Fin S12288.rank)
  reducesTo_S12288_S_d0 : S12288.ReducesTo [0] S_

variable [Facts]

def fn_part1 {F : FTy → Type} [FloatOps F] (main_arg5 : FVec F S12288 .f32) (main_v13 : IVec S_ 1) (main_v16 : IVec S16x12288 1) : IVec S_ 1 :=
  let main_c_5 : IVec S_ 1 := constantI S_ 1 1#1
  let main_v17 : IVec S_ 1 := (fun x v => Host.reduce IntOp.andi x v reducesTo_S16x12288_S_d0_1 h_S_) main_v16 main_c_5
  let main_v18 : IVec S_ 1 := andi main_v13 main_v17
  let main_v19 : FVec F S12288 .f32 := Host.absf main_arg5
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  main_v23

def fn {F : FTy → Type} [FloatOps F] (main_arg0 : FVec F S12288x12288 .f32) (main_arg1 : IVec S2x393216 32) (main_arg2 : FVec F S12288x16 .f32) (main_arg3 : FVec F S16 .f32) (main_arg4 : FVec F S16x12288 .f32) (main_arg5 : FVec F S12288 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S12288x16 .f32 := Host.absf main_arg2
  let main_cst_0 : FVec F S_ .f32 := constant S_ .f32 0x7F800000#32
  let main_v5 : FVec F S12288x16 .f32 := broadcastInDim S12288x16 ![] bcast_S_S12288x16 main_cst_0
  let main_v6 : IVec S12288x16 1 := cmpf .olt main_v4 main_v5
  let main_c_1 : IVec S_ 1 := constantI S_ 1 1#1
  let main_v7 : IVec S_ 1 := (fun x v => Host.reduce IntOp.andi x v reducesTo_S12288x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x12288 .f32 := Host.absf main_arg4
  let main_cst_4 : FVec F S_ .f32 := constant S_ .f32 0x7F800000#32
  let main_v15 : FVec F S16x12288 .f32 := broadcastInDim S16x12288 ![] bcast_S_S16x12288 main_cst_4
  let main_v16 : IVec S16x12288 1 := cmpf .olt main_v14 main_v15
  fn_part1 (F := F) main_arg5 main_v13 main_v16
-- ==== Kernel.lean ====
abbrev S12288x12288 : Shape := ⟨2, ![12288, 12288]⟩
abbrev S2x393216 : Shape := ⟨2, ![2, 393216]⟩
abbrev S12288x16 : Shape := ⟨2, ![12288, 16]⟩
abbrev S16 : Shape := ⟨1, ![16]⟩
abbrev S16x12288 : Shape := ⟨2, ![16, 12288]⟩
abbrev S12288 : Shape := ⟨1, ![12288]⟩
abbrev S256x12288 : Shape := ⟨2, ![256, 12288]⟩
abbrev S256x16 : Shape := ⟨2, ![256, 16]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S405504x16 : Shape := ⟨2, ![405504, 16]⟩
abbrev S1x16 : Shape := ⟨2, ![1, 16]⟩
abbrev S1x12288 : Shape := ⟨2, ![1, 12288]⟩
abbrev S128x16 : Shape := ⟨2, ![128, 16]⟩
abbrev S128x12288 : Shape := ⟨2, ![128, 12288]⟩
abbrev S128 : Shape := ⟨1, ![128]⟩
abbrev S128x1 : Shape := ⟨2, ![128, 1]⟩

abbrev nBuf : Space → Nat
  | .hbm => 127
  | .vmem => 11
  | .smem => 0
  | _ => 0

abbrev bufTy : (tb : Table) → Fin (tcTables nBuf tb) → BufTy
  | .hbm, ⟨0, _⟩ => ⟨S12288x12288, .f32⟩
  | .hbm, ⟨1, _⟩ => ⟨S2x393216, .i32⟩
  | .hbm, ⟨2, _⟩ => ⟨S12288x16, .f32⟩
  | .hbm, ⟨3, _⟩ => ⟨S16, .f32⟩
  | .hbm, ⟨4, _⟩ => ⟨S16x12288, .f32⟩
  | .hbm, ⟨5, _⟩ => ⟨S12288, .f32⟩
  | .hbm, ⟨6, _⟩ => ⟨S12288x16, .f32⟩
  | .hbm, ⟨7, _⟩ => ⟨S1x393216, .i32⟩
  | .hbm, ⟨8, _⟩ => ⟨S393216, .i32⟩
  | .hbm, ⟨9, _⟩ => ⟨S1x393216, .i32⟩
  | .hbm, ⟨10, _⟩ => ⟨S393216, .i32⟩
  | .hbm, ⟨11, _⟩ => ⟨S12288, .i32⟩
  | .hbm, ⟨12, _⟩ => ⟨S405504, .i32⟩
  | .hbm, ⟨13, _⟩ => ⟨S405504, .i32⟩
  | .hbm, ⟨14, _⟩ => ⟨S_, .f32⟩
  | .hbm, ⟨15, _⟩ => ⟨S405504, .f32⟩
  | .hbm, ⟨16, _⟩ => ⟨S_, .f32⟩
  | .hbm, ⟨17, _⟩ => ⟨S12288, .f32⟩
  | .hbm, ⟨18, _⟩ => ⟨S405504x1, .i32⟩
  | .hbm, ⟨19, _⟩ => ⟨S12288, .f32⟩
  | .hbm, ⟨20, _⟩ => ⟨S_, .f32⟩
  | .hbm, ⟨21, _⟩ => ⟨S12288, .f32⟩
  | .hbm, ⟨22, _⟩ => ⟨S12288, .i1⟩
  | .hbm, ⟨23, _⟩ => ⟨S12288, .f32⟩
  | .hbm, ⟨24, _⟩ => ⟨S_, .f32⟩
  | .hbm, ⟨25, _⟩ => ⟨S_, .f32⟩
  | .hbm, ⟨26, _⟩ => ⟨S12288, .f32⟩
  | .hbm, ⟨27, _⟩ => ⟨S12288, .f32⟩
  | .hbm, ⟨28, _⟩ => ⟨S_, .i32⟩
  | .hbm, ⟨29, _⟩ => ⟨S405504, .i32⟩
  | .hbm, ⟨30, _⟩ => ⟨S405504, .i1⟩
  | .hbm, ⟨31, _⟩ => ⟨S_, .i32⟩
  | .hbm, ⟨32, _⟩ => ⟨S405504, .i32⟩
  | .hbm, ⟨33, _⟩ => ⟨S405504, .i32⟩
  | .hbm, ⟨34, _⟩ => ⟨S405504, .i32⟩
  | .hbm, ⟨35, _⟩ => ⟨S405504x1, .i32⟩
  | .hbm, ⟨36, _⟩ => ⟨S405504, .f32⟩
  | .hbm, ⟨37, _⟩ => ⟨S_, .i32⟩
  | .hbm, ⟨38, _⟩ => ⟨S405504, .i32⟩
  | .hbm, ⟨39, _⟩ => ⟨S405504, .i1⟩
  | .hbm, ⟨40, _⟩ => ⟨S_, .i32⟩
  | .hbm, ⟨41, _⟩ => ⟨S405504, .i32⟩
  | .hbm, ⟨42, _⟩ => ⟨S405504, .i32⟩
  | .hbm, ⟨43, _⟩ => ⟨S405504, .i32⟩
  | .hbm, ⟨44, _⟩ => ⟨S405504x1, .i32⟩
  | .hbm, ⟨45, _⟩ => ⟨S405504, .f32⟩
  | .hbm, ⟨46, _⟩ => ⟨S405504, .f32⟩
  | .hbm, ⟨47, _⟩ => ⟨S_, .i32⟩
  | .hbm, ⟨48, _⟩ => ⟨S405504, .i32⟩
  | .hbm, ⟨49, _⟩ => ⟨S405504, .i1⟩
  | .hbm, ⟨50, _⟩ => ⟨S_, .i32⟩
  | .hbm, ⟨51, _⟩ => ⟨S405504, .i32⟩
  | .hbm, ⟨52, _⟩ => ⟨S405504, .i32⟩
  | .hbm, ⟨53, _⟩ => ⟨S405504, .i32⟩
  | .hbm, ⟨54, _⟩ => ⟨S405504x1, .i32⟩
  | .hbm, ⟨55, _⟩ => ⟨S405504x16, .f32⟩
  | .hbm, ⟨56, _⟩ => ⟨S405504x1, .f32⟩
  | .hbm, ⟨57, _⟩ => ⟨S405504x16, .f32⟩
  | .hbm, ⟨58, _⟩ => ⟨S405504x16, .f32⟩
  | .hbm, ⟨59, _⟩ => ⟨S_, .f32⟩
  | .hbm, ⟨60, _⟩ => ⟨S12288x16, .f32⟩
  | .hbm, ⟨61, _⟩ => ⟨S405504x1, .i32⟩
  | .hbm, ⟨62, _⟩ => ⟨S12288x16, .f32⟩
  | .hbm, ⟨63, _⟩ => ⟨S1x16, .f32⟩
  | .hbm, ⟨64, _⟩ => ⟨S12288x16, .f32⟩
  | .hbm, ⟨65, _⟩ => ⟨S12288x16, .f32⟩
  | .hbm, ⟨66, _⟩ => ⟨S_, .f32⟩
  | .hbm, ⟨67, _⟩ => ⟨S12288x16, .f32⟩
  | .hbm, ⟨68, _⟩ => ⟨S12288x16, .f32⟩
  | .hbm, ⟨69, _⟩ => ⟨S1x393216, .i32⟩
  | .hbm, ⟨70, _⟩ => ⟨S393216, .i32⟩
  | .hbm, ⟨71, _⟩ => ⟨S1x393216, .i32⟩
  | .hbm, ⟨72, _⟩ => ⟨S393216, .i32⟩
  | .hbm, ⟨73, _⟩ => ⟨S12288, .i32⟩
  | .hbm, ⟨74, _⟩ => ⟨S405504, .i32⟩
  | .hbm, ⟨75, _⟩ => ⟨S405504, .i32⟩
  | .hbm, ⟨76, _⟩ => ⟨S_, .f32⟩
  | .hbm, ⟨77, _⟩ => ⟨S405504, .f32⟩
  | .hbm, ⟨78, _⟩ => ⟨S_, .f32⟩
  | .hbm, ⟨79, _⟩ => ⟨S12288, .f32⟩
  | .hbm, ⟨80, _⟩ => ⟨S405504x1, .i32⟩
  | .hbm, ⟨81, _⟩ => ⟨S12288, .f32⟩
  | .hbm, ⟨82, _⟩ => ⟨S_, .f32⟩
  | .hbm, ⟨83, _⟩ => ⟨S12288, .f32⟩
  | .hbm, ⟨84, _⟩ => ⟨S12288, .i1⟩
  | .hbm, ⟨85, _⟩ => ⟨S12288, .f32⟩
  | .hbm, ⟨86, _⟩ => ⟨S_, .f32⟩
  | .hbm, ⟨87, _⟩ => ⟨S_, .f32⟩
  | .hbm, ⟨88, _⟩ => ⟨S12288, .f32⟩
  | .hbm, ⟨89, _⟩ => ⟨S12288, .f32⟩
  | .hbm, ⟨90, _⟩ => ⟨S_, .i32⟩
  | .hbm, ⟨91, _⟩ => ⟨S405504, .i32⟩
  | .hbm, ⟨92, _⟩ => ⟨S405504, .i1⟩
  | .hbm, ⟨93, _⟩ => ⟨S_, .i32⟩
  | .hbm, ⟨94, _⟩ => ⟨S405504, .i32⟩
  | .hbm, ⟨95, _⟩ => ⟨S405504, .i32⟩
  | .hbm, ⟨96, _⟩ => ⟨S405504, .i32⟩
  | .hbm, ⟨97, _⟩ => ⟨S405504x1, .i32⟩
  | .hbm, ⟨98, _⟩ => ⟨S405504, .f32⟩
  | .hbm, ⟨99, _⟩ => ⟨S_, .i32⟩
  | .hbm, ⟨100, _⟩ => ⟨S405504, .i32⟩
  | .hbm, ⟨101, _⟩ => ⟨S405504, .i1⟩
  | .hbm, ⟨102, _⟩ => ⟨S_, .i32⟩
  | .hbm, ⟨103, _⟩ => ⟨S405504, .i32⟩
  | .hbm, ⟨104, _⟩ => ⟨S405504, .i32⟩
  | .hbm, ⟨105, _⟩ => ⟨S405504, .i32⟩
  | .hbm, ⟨106, _⟩ => ⟨S405504x1, .i32⟩
  | .hbm, ⟨107, _⟩ => ⟨S405504, .f32⟩
  | .hbm, ⟨108, _⟩ => ⟨S405504, .f32⟩
  | .hbm, ⟨109, _⟩ => ⟨S_, .i32⟩
  | .hbm, ⟨110, _⟩ => ⟨S405504, .i32⟩
  | .hbm, ⟨111, _⟩ => ⟨S405504, .i1⟩
  | .hbm, ⟨112, _⟩ => ⟨S_, .i32⟩
  | .hbm, ⟨113, _⟩ => ⟨S405504, .i32⟩
  | .hbm, ⟨114, _⟩ => ⟨S405504, .i32⟩
  | .hbm, ⟨115, _⟩ => ⟨S405504, .i32⟩
  | .hbm, ⟨116, _⟩ => ⟨S405504x1, .i32⟩
  | .hbm, ⟨117, _⟩ => ⟨S405504x16, .f32⟩
  | .hbm, ⟨118, _⟩ => ⟨S405504x1, .f32⟩
  | .hbm, ⟨119, _⟩ => ⟨S405504x16, .f32⟩
  | .hbm, ⟨120, _⟩ => ⟨S405504x16, .f32⟩
  | .hbm, ⟨121, _⟩ => ⟨S_, .f32⟩
  | .hbm, ⟨122, _⟩ => ⟨S12288x16, .f32⟩
  | .hbm, ⟨123, _⟩ => ⟨S405504x1, .i32⟩
  | .hbm, ⟨124, _⟩ => ⟨S12288x16, .f32⟩
  | .hbm, ⟨125, _⟩ => ⟨S1x12288, .f32⟩
  | .hbm, ⟨126, _⟩ => ⟨S12288x12288, .f32⟩
  | .local _ .vmem, ⟨0, _⟩ => ⟨S256x12288, .f32⟩
  | .local _ .vmem, ⟨1, _⟩ => ⟨S256x12288, .f32⟩
  | .local _ .vmem, ⟨2, _⟩ => ⟨S12288x16, .f32⟩
  | .local _ .vmem, ⟨3, _⟩ => ⟨S256x16, .f32⟩
  | .local _ .vmem, ⟨4, _⟩ => ⟨S256x16, .f32⟩
  | .local _ .vmem, ⟨5, _⟩ => ⟨S128x16, .f32⟩
  | .local _ .vmem, ⟨6, _⟩ => ⟨S128x16, .f32⟩
  | .local _ .vmem, ⟨7, _⟩ => ⟨S16x12288, .f32⟩
  | .local _ .vmem, ⟨8, _⟩ => ⟨S1x12288, .f32⟩
  | .local _ .vmem, ⟨9, _⟩ => ⟨S128x12288, .f32⟩
  | .local _ .vmem, ⟨10, _⟩ => ⟨S128x12288, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12288x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x12288 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x12288 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x12288_S256x12288_0_0 : ∀ a, (![0, 0] : Fin 2 → Nat) a + S256x12288.size a ≤ S256x12288.size a
  h_S256x12288 : 0 < S256x12288.numel
  bitsLt_bf16_f32 : FTy.bits .bf16 < FTy.bits .f32
  inb_S12288x16_S12288x16_0_0 : ∀ a, (![0, 0] : Fin 2 → Nat) a + S12288x16.size a ≤ S12288x16.size a
  h_S12288x16 : 0 < S12288x16.numel
  inb_S256x16_S256x16_0_0 : ∀ a, (![0, 0] : Fin 2 → Nat) a + S256x16.size a ≤ S256x16.size a
  h_S256x16 : 0 < S256x16.numel
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x16_0_1 : S405504x1.BroadcastsInDim S405504x16 (![0, 1] : Fin 2 → Fin S405504x16.rank)
  bcast_S_S12288x16 : S_.BroadcastsInDim S12288x16 (![] : Fin 0 → Fin S12288x16.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  shapeCasts_S12288_S1x12288 : S12288.ShapeCasts S1x12288
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16x12288_S16x12288_0_0 : ∀ a, (![0, 0] : Fin 2 → Nat) a + S16x12288.size a ≤ S16x12288.size a
  h_S16x12288 : 0 < S16x12288.numel
  inb_S1x12288_S1x12288_0_0 : ∀ a, (![0, 0] : Fin 2 → Nat) a + S1x12288.size a ≤ S1x12288.size a
  h_S1x12288 : 0 < S1x12288.numel
  shapeCasts_S1x12288_S1x12288 : S1x12288.ShapeCasts S1x12288
  broadcasts_S1x12288_S128x12288 : S1x12288.Broadcasts S128x12288
  reduces_S128x12288_S128 : S128x12288.Reduces [1] S128
  shapeCasts_S128_S128x1 : S128.ShapeCasts S128x1
  broadcasts_S128x1_S128x12288 : S128x1.Broadcasts S128x12288
  inb_S128x12288_S128x12288_0_0 : ∀ a, (![0, 0] : Fin 2 → Nat) a + S128x12288.size a ≤ S128x12288.size a
  h_S128x12288 : 0 < S128x12288.numel
  dot_S256x12288_S12288x16_S256x16_1_0_0_1_n_n_wf : DotDims.WF S256x12288 S12288x16 S256x16 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x16_S405504x1_S405504x16_1_0_n_n_0_1_116_wf : GatherDims.WF S12288x16 S405504x1 S405504x16 [1] [0] [] [0] [] 1 ![1, 16]
  scatter_S12288x16_S405504x1_S405504x16_1_0_0_1_wf : ScatterDims.WF S12288x16 S405504x1 S405504x16 [1] [0] [0] 1
  dot_S128x16_S16x12288_S128x12288_1_0_0_1_n_n_wf : DotDims.WF S128x16 S16x12288 S128x12288 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x12288.size a ≤ S12288x12288.size a
  hwx0_0 : ∀ i : grid0.Coords, EltTy.bits .f32 = 32 ∨ (Rect.block (s := S12288x12288) S256x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12288x16.size a ≤ S12288x16.size a
  hwx0_1 : ∀ i : grid0.Coords, EltTy.bits .f32 = 32 ∨ (Rect.block (s := S12288x16) S12288x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S12288x16.size a
  hwx0_2 : ∀ i : grid0.Coords, EltTy.bits .f32 = 32 ∨ (Rect.block (s := S12288x16) S256x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16.size a ≤ S12288x16.size a
  hwx1_0 : ∀ i : grid1.Coords, EltTy.bits .f32 = 32 ∨ (Rect.block (s := S12288x16) S128x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x12288.size a ≤ S16x12288.size a
  hwx1_1 : ∀ i : grid1.Coords, EltTy.bits .f32 = 32 ∨ (Rect.block (s := S16x12288) S16x12288.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x12288.size a ≤ S1x12288.size a
  hwx1_2 : ∀ i : grid1.Coords, EltTy.bits .f32 = 32 ∨ (Rect.block (s := S1x12288) S1x12288.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x12288.size a ≤ S12288x12288.size a
  hwx1_3 : ∀ i : grid1.Coords, EltTy.bits .f32 = 32 ∨ (Rect.block (s := S12288x12288) S128x12288.size (cc1_transform_3 i) (hinb1_3 i)).WholeWords (EltTy.packing .f32)

variable [Facts₀]

def dot_S256x12288_S12288x16_S256x16_1_0_0_1_n_n : DotDims S256x12288 S12288x16 S256x16 where
  lhsContracting := [1]
  rhsContracting := [0]
  lhsNonContracting := [0]
  rhsNonContracting := [1]
  lhsBatch := []
  rhsBatch := []
  wf := dot_S256x12288_S12288x16_S256x16_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x16_S405504x1_S405504x16_1_0_n_n_0_1_116 : GatherDims S12288x16 S405504x1 S405504x16 where
  offsetDims := [1]
  collapsedSliceDims := [0]
  operandBatchingDims := []
  startIndicesBatchingDims := []
  startIndexMap := [0]
  indexVectorDim := 1
  sliceSizes := ![1, 16]
  wf := gather_S12288x16_S405504x1_S405504x16_1_0_n_n_0_1_116_wf
def scatter_S12288x16_S405504x1_S405504x16_1_0_0_1 : ScatterDims S12288x16 S405504x1 S405504x16 where
  updateWindowDims := [1]
  insertedWindowDims := [0]
  scatterDimsToOperandDims := [0]
  indexVectorDim := 1
  wf := scatter_S12288x16_S405504x1_S405504x16_1_0_0_1_wf
def dot_S128x16_S16x12288_S128x12288_1_0_0_1_n_n : DotDims S128x16 S16x12288 S128x12288 where
  lhsContracting := [1]
  rhsContracting := [0]
  lhsNonContracting := [0]
  rhsNonContracting := [1]
  lhsBatch := []
  rhsBatch := []
  wf := dot_S128x16_S16x12288_S128x12288_1_0_0_1_n_n_wf

abbrev win0_0 : Pipeline.Window sig grid0 :=
  Pipeline.Window.ofSpec (Memref.whole main_arg0) S256x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12288x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v90) S128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x12288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x12288.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S128x12288.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S12288x12288 : Shape := ⟨2, ![12288, 12288]⟩
abbrev S2x393216 : Shape := ⟨2, ![2, 393216]⟩
abbrev S12288x16 : Shape := ⟨2, ![12288, 16]⟩
abbrev S16 : Shape := ⟨1, ![16]⟩
abbrev S16x12288 : Shape := ⟨2, ![16, 12288]⟩
abbrev S12288 : Shape := ⟨1, ![12288]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S405504x16 : Shape := ⟨2, ![405504, 16]⟩
abbrev S1x16 : Shape := ⟨2, ![1, 16]⟩
abbrev S1x12288 : Shape := ⟨2, ![1, 12288]⟩
abbrev S12288x1 : Shape := ⟨2, ![12288, 1]⟩

abbrev nBuf : Space → Nat
  | .hbm => 144
  | .vmem => 0
  | .smem => 0
  | _ => 0

abbrev hbmTy0_0 (i : Nat) : BufTy := match i % 128 with
  | 0 => ⟨S12288x12288, .f32⟩
  | 1 => ⟨S2x393216, .i32⟩
  | 2 => ⟨S12288x16, .f32⟩
  | 3 => ⟨S16, .f32⟩
  | 4 => ⟨S16x12288, .f32⟩
  | 5 => ⟨S12288, .f32⟩
  | 6 => ⟨S12288x16, .f32⟩
  | 7 => ⟨S1x393216, .i32⟩
  | 8 => ⟨S393216, .i32⟩
  | 9 => ⟨S1x393216, .i32⟩
  | 10 => ⟨S393216, .i32⟩
  | 11 => ⟨S12288, .i32⟩
  | 12 => ⟨S405504, .i32⟩
  | 13 => ⟨S405504, .i32⟩
  | 14 => ⟨S_, .f32⟩
  | 15 => ⟨S405504, .f32⟩
  | 16 => ⟨S_, .f32⟩
  | 17 => ⟨S12288, .f32⟩
  | 18 => ⟨S405504x1, .i32⟩
  | 19 => ⟨S12288, .f32⟩
  | 20 => ⟨S_, .f32⟩
  | 21 => ⟨S12288, .f32⟩
  | 22 => ⟨S12288, .i1⟩
  | 23 => ⟨S12288, .f32⟩
  | 24 => ⟨S_, .f32⟩
  | 25 => ⟨S_, .f32⟩
  | 26 => ⟨S12288, .f32⟩
  | 27 => ⟨S12288, .f32⟩
  | 28 => ⟨S_, .i32⟩
  | 29 => ⟨S405504, .i32⟩
  | 30 => ⟨S405504, .i1⟩
  | 31 => ⟨S_, .i32⟩
  | 32 => ⟨S405504, .i32⟩
  | 33 => ⟨S405504, .i32⟩
  | 34 => ⟨S405504, .i32⟩
  | 35 => ⟨S405504x1, .i32⟩
  | 36 => ⟨S405504, .f32⟩
  | 37 => ⟨S_, .i32⟩
  | 38 => ⟨S405504, .i32⟩
  | 39 => ⟨S405504, .i1⟩
  | 40 => ⟨S_, .i32⟩
  | 41 => ⟨S405504, .i32⟩
  | 42 => ⟨S405504, .i32⟩
  | 43 => ⟨S405504, .i32⟩
  | 44 => ⟨S405504x1, .i32⟩
  | 45 => ⟨S405504, .f32⟩
  | 46 => ⟨S405504, .f32⟩
  | 47 => ⟨S_, .i32⟩
  | 48 => ⟨S405504, .i32⟩
  | 49 => ⟨S405504, .i1⟩
  | 50 => ⟨S_, .i32⟩
  | 51 => ⟨S405504, .i32⟩
  | 52 => ⟨S405504, .i32⟩
  | 53 => ⟨S405504, .i32⟩
  | 54 => ⟨S405504x1, .i32⟩
  | 55 => ⟨S405504x16, .f32⟩
  | 56 => ⟨S405504x1, .f32⟩
  | 57 => ⟨S405504x16, .f32⟩
  | 58 => ⟨S405504x16, .f32⟩
  | 59 => ⟨S_, .f32⟩
  | 60 => ⟨S12288x16, .f32⟩
  | 61 => ⟨S405504x1, .i32⟩
  | 62 => ⟨S12288x16, .f32⟩
  | 63 => ⟨S1x16, .f32⟩
  | 64 => ⟨S12288x16, .f32⟩
  | 65 => ⟨S12288x16, .f32⟩
  | 66 => ⟨S_, .f32⟩
  | 67 => ⟨S12288x16, .f32⟩
  | 68 => ⟨S12288x16, .f32⟩
  | 69 => ⟨S1x393216, .i32⟩
  | 70 => ⟨S393216, .i32⟩
  | 71 => ⟨S1x393216, .i32⟩
  | 72 => ⟨S393216, .i32⟩
  | 73 => ⟨S12288, .i32⟩
  | 74 => ⟨S405504, .i32⟩
  | 75 => ⟨S405504, .i32⟩
  | 76 => ⟨S_, .f32⟩
  | 77 => ⟨S405504, .f32⟩
  | 78 => ⟨S_, .f32⟩
  | 79 => ⟨S12288, .f32⟩
  | 80 => ⟨S405504x1, .i32⟩
  | 81 => ⟨S12288, .f32⟩
  | 82 => ⟨S_, .f32⟩
  | 83 => ⟨S12288, .f32⟩
  | 84 => ⟨S12288, .i1⟩
  | 85 => ⟨S12288, .f32⟩
  | 86 => ⟨S_, .f32⟩
  | 87 => ⟨S_, .f32⟩
  | 88 => ⟨S12288, .f32⟩
  | 89 => ⟨S12288, .f32⟩
  | 90 => ⟨S_, .i32⟩
  | 91 => ⟨S405504, .i32⟩
  | 92 => ⟨S405504, .i1⟩
  | 93 => ⟨S_, .i32⟩
  | 94 => ⟨S405504, .i32⟩
  | 95 => ⟨S405504, .i32⟩
  | 96 => ⟨S405504, .i32⟩
  | 97 => ⟨S405504x1, .i32⟩
  | 98 => ⟨S405504, .f32⟩
  | 99 => ⟨S_, .i32⟩
  | 100 => ⟨S405504, .i32⟩
  | 101 => ⟨S405504, .i1⟩
  | 102 => ⟨S_, .i32⟩
  | 103 => ⟨S405504, .i32⟩
  | 104 => ⟨S405504, .i32⟩
  | 105 => ⟨S405504, .i32⟩
  | 106 => ⟨S405504x1, .i32⟩
  | 107 => ⟨S405504, .f32⟩
  | 108 => ⟨S405504, .f32⟩
  | 109 => ⟨S_, .i32⟩
  | 110 => ⟨S405504, .i32⟩
  | 111 => ⟨S405504, .i1⟩
  | 112 => ⟨S_, .i32⟩
  | 113 => ⟨S405504, .i32⟩
  | 114 => ⟨S405504, .i32⟩
  | 115 => ⟨S405504, .i32⟩
  | 116 => ⟨S405504x1, .i32⟩
  | 117 => ⟨S405504x16, .f32⟩
  | 118 => ⟨S405504x1, .f32⟩
  | 119 => ⟨S405504x16, .f32⟩
  | 120 => ⟨S405504x16, .f32⟩
  | 121 => ⟨S_, .f32⟩
  | 122 => ⟨S12288x16, .f32⟩
  | 123 => ⟨S405504x1, .i32⟩
  | 124 => ⟨S12288x16, .f32⟩
  | 125 => ⟨S12288x12288, .f32⟩
  | 126 => ⟨S1x12288, .f32⟩
  | 127 => ⟨S12288x12288, .f32⟩
  | _ => ⟨S12288x12288, .f32⟩

abbrev hbmTy0_1 (i : Nat) : BufTy := match i % 128 with
  | 0 => ⟨S12288x12288, .f32⟩
  | 1 => ⟨S_, .f32⟩
  | 2 => ⟨S12288, .f32⟩
  | 3 => ⟨S_, .f32⟩
  | 4 => ⟨S12288, .f32⟩
  | 5 => ⟨S12288, .f32⟩
  | 6 => ⟨S12288x1, .f32⟩
  | 7 => ⟨S12288x12288, .f32⟩
  | 8 => ⟨S12288x12288, .f32⟩
  | 9 => ⟨S12288x12288, .f32⟩
  | 10 => ⟨S_, .f32⟩
  | 11 => ⟨S12288, .f32⟩
  | 12 => ⟨S12288x1, .f32⟩
  | 13 => ⟨S12288x1, .f32⟩
  | 14 => ⟨S12288x12288, .f32⟩
  | 15 => ⟨S12288x12288, .f32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_17 : Ref sig .tc := ⟨.hbm, 109, rfl⟩
abbrev main_v78 : Ref sig .tc := ⟨.hbm, 110, rfl⟩
abbrev main_v79 : Ref sig .tc := ⟨.hbm, 111, rfl⟩
abbrev main_c_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  slices_S2x393216_S1x393216_1_0 : S2x393216.Slices ![1, 0] S1x393216
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x16_0_1 : S405504x1.BroadcastsInDim S405504x16 (![0, 1] : Fin 2 → Fin S405504x16.rank)
  bcast_S_S12288x16 : S_.BroadcastsInDim S12288x16 (![] : Fin 0 → Fin S12288x16.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  reducesTo_S12288x12288_S12288_d1 : S12288x12288.ReducesTo [1] S12288
  h_S_ : 0 < S_.numel
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  dot_S12288x12288_S12288x16_S12288x16_1_0_0_1_n_n_wf : DotDims.WF S12288x12288 S12288x16 S12288x16 [1] [0] [0] [1] [] []
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  gather_S12288x16_S405504x1_S405504x16_1_0_n_n_0_1_116_wf : GatherDims.WF S12288x16 S405504x1 S405504x16 [1] [0] [] [0] [] 1 ![1, 16]
  scatter_S12288x16_S405504x1_S405504x16_1_0_0_1_wf : ScatterDims.WF S12288x16 S405504x1 S405504x16 [1] [0] [0] 1
  dot_S12288x16_S16x12288_S12288x12288_1_0_0_1_n_n_wf : DotDims.WF S12288x16 S16x12288 S12288x12288 [1] [0] [0] [1] [] []

variable [Facts₀]

def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf
def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def gather_S12288x16_S405504x1_S405504x16_1_0_n_n_0_1_116 : GatherDims S12288x16 S405504x1 S405504x16 where
  offsetDims := [1]
  collapsedSliceDims := [0]
  operandBatchingDims := []
  startIndicesBatchingDims := []
  startIndexMap := [0]
  indexVectorDim := 1
  sliceSizes := ![1, 16]
  wf := gather_S12288x16_S405504x1_S405504x16_1_0_n_n_0_1_116_wf
def scatter_S12288x16_S405504x1_S405504x16_1_0_0_1 : ScatterDims S12288x16 S405504x1 S405504x16 where
  updateWindowDims := [1]
  insertedWindowDims := [0]
  scatterDimsToOperandDims := [0]
  indexVectorDim := 1
  wf := scatter_S12288x16_S405504x1_S405504x16_1_0_0_1_wf
def dot_S12288x16_S16x12288_S12288x12288_1_0_0_1_n_n : DotDims S12288x16 S16x12288 S12288x12288 where
  lhsContracting := [1]
  rhsContracting := [0]
  lhsNonContracting := [0]
  rhsNonContracting := [1]
  lhsBatch := []
  rhsBatch := []
  wf := dot_S12288x16_S16x12288_S12288x12288_1_0_0_1_n_n_wf

class Facts : Prop extends Facts₀ where

variable [Facts]
-- ==== Proof.KerRun.lean ====
/-
  The idealized kernel's whole run, with its result array named. @main is a chain of nine segments: the first
  pallas_call (x · W1 by blocks of 256 rows), seven stretches of host operations (the neighbourhood sum, bias, relu, the
  neighbourhood sum again, the bias row of the head), and the second pallas_call (the head by blocks of 128 rows). The
  contents of every buffer at each segment boundary are a fold from the launch memory: a host stretch applies its
  operations, a region leaves its arrays at what its write-backs leave. Every weakly fair execution terminates, nothing
  faulting, with every unscoped buffer at the last boundary's contents; here that is read at the RESULT's buffer as well
  as at the six arguments, which walk back to the launch memory unchanged.
-/
import proofs.«172848_j30485677867423_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents (`W9` at the result's buffer: what the second region's write-backs leave) and the arguments as launched. -/
theorem run_res : θ_run defs (onTc (τ := τ) (main (F := F))) ⟨m, fun _ => 0, ρ⟩ (fun r => ∀ c : Dev nD,
      r.2.mem ((c.tc : Thread nD τ).loc main_v92) = W9 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v92 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

/-- The result's buffer is the second region's output window: its final contents are what that region's write-backs
    leave, over the contents the region was entered with. -/
theorem W9_result (c : Dev nD) :
    W9 m ρ c (Proc.devRef .tc main_v92) = (dat1 (V8 m ρ) c).arrAt 3 cfg1.N :=
  W9_arr m ρ c 3

end Cert.KernelIdeal.ResultRun

end
-- ==== Proof.RowOps.lean ====
/-
  The mathematics of this certificate, one matrix row at a time, on the extended reals.

  Both programs compute  log_softmax (A (relu (A (x · W1) + b1)) · W2 + b2)  along rows, where A is the
  degree-normalised neighbourhood sum of a graph given by an edge list. A acts between the two matrix products and
  is the same host computation in both programs, so it never has to be opened; what the two programs do differently
  is the two products and the row-wise log-softmax, which the kernel computes block of rows by block of rows.

  Every entry of those two stages depends on ONE row of the left operand only:
    * entry c of (row · W) is the finite sum over k of row k * W (k, c)                       (rowDot);
    * entry c of log_softmax (row · W + b) is  l c - m - log (sum over c' of exp (l c' - m))  (rowLogSoftmax),
      with l = row · W + b the row of logits and m the largest logit of the row, a fold of max from -infinity.
  So a block of rows of the result is the same function of the same rows of the operand, and the blocks tile the array.
  Finite sums in the extended reals are sums in a commutative monoid and a fold of max is order-independent, so no
  finiteness of the inputs is needed anywhere.
-/
import Idealize.ShloMosaic.PureOps.Ideal.Laws
import Idealize.ShloMosaic.Lib.ValueIdx

noncomputable section

open scoped BigOperators

namespace Cert.Rows

open Idealize.ShloMosaic Idealize.ShloMosaic.ValueIdx

/-- Entry `c` of a row vector times a `K × N` matrix: the sum over the inner position. -/
def rowDot {K N : ℕ} (xr : Fin K → EReal) (w : (⟨2, ![K, N]⟩ : Shape).Idx → EReal) (c : Fin N) : EReal :=
  ∑ k : Fin K, xr k * w (ix2 k c)

/-- The product of an `M × K` by a `K × N` matrix: row `i 0` of the left operand against the right one. -/
def matProd {M K N : ℕ} (x : (⟨2, ![M, K]⟩ : Shape).Idx → EReal) (w : (⟨2, ![K, N]⟩ : Shape).Idx → EReal) :
    (⟨2, ![M, N]⟩ : Shape).Idx → EReal :=
  fun i => rowDot (fun k => x (ix2 (i 0) k)) w (i 1)

/-- The f32 pattern of minus infinity, kept as a word: both programs start the row maximum from it. -/
def negInf : EReal := Ideal.ofBits .f32 0xFF800000#32

/-- Logit `c` of a row: the row against the weights, plus the bias. -/
def rowLogit {K N : ℕ} (hr : Fin K → EReal) (w : (⟨2, ![K, N]⟩ : Shape).Idx → EReal)
    (b : Fin N → EReal) (c : Fin N) : EReal :=
  rowDot hr w c + b c

/-- The largest entry of a row: the fold of `max` over the columns, from minus infinity. -/
def rowMaxOf {N : ℕ} (l : Fin N → EReal) : EReal :=
  (Finset.univ : Finset (Fin N)).fold max negInf l

/-- Entry `c` of the log-softmax of a row `l`: shifted by the row maximum, minus the log of the sum of the exponentials
    of the shifted row. -/
def lsmRow {N : ℕ} (l : Fin N → EReal) (c : Fin N) : EReal :=
  (l c - rowMaxOf l) - Ideal.log (∑ c' : Fin N, Ideal.exp (l c' - rowMaxOf l))

/-- Entry `c` of the log-softmax of the logits of a row. -/
def rowLogSoftmax {K N : ℕ} (hr : Fin K → EReal) (w : (⟨2, ![K, N]⟩ : Shape).Idx → EReal)
    (b : Fin N → EReal) (c : Fin N) : EReal :=
  lsmRow (rowLogit hr w b) c

/-- The classifier head on a whole `M × K` array: every row's log-softmax. -/
def head {M K N : ℕ} (h : (⟨2, ![M, K]⟩ : Shape).Idx → EReal) (w : (⟨2, ![K, N]⟩ : Shape).Idx → EReal)
    (b : Fin N → EReal) : (⟨2, ![M, N]⟩ : Shape).Idx → EReal :=
  fun i => rowLogSoftmax (fun k => h (ix2 (i 0) k)) w b (i 1)

/-- An entry of the product from the row and column it depends on: a row `xr` that is row `i 0` of `x`, against the same
    right operand, at column `i 1`. -/
theorem matProd_of_row {M K N : ℕ} (x : (⟨2, ![M, K]⟩ : Shape).Idx → EReal) (w w' : (⟨2, ![K, N]⟩ : Shape).Idx → EReal)
    (i : (⟨2, ![M, N]⟩ : Shape).Idx) (xr : Fin K → EReal) (c : Fin N)
    (hx : ∀ k, xr k = x (ix2 (i 0) k)) (hw : w' = w) (hc : c = i 1) :
    rowDot xr w' c = matProd x w i := by
  subst hw hc
  have e : xr = fun k => x (ix2 (i 0) k) := funext hx
  subst e
  rfl

/-- An entry of the head from the row it depends on: a row `hr` that is row `i 0` of `h`, the same weights and bias,
    at column `i 1`. -/
theorem head_of_row {M K N : ℕ} (h : (⟨2, ![M, K]⟩ : Shape).Idx → EReal) (w w' : (⟨2, ![K, N]⟩ : Shape).Idx → EReal)
    (b b' : Fin N → EReal) (i : (⟨2, ![M, N]⟩ : Shape).Idx) (hr : Fin K → EReal) (c : Fin N)
    (hx : ∀ k, hr k = h (ix2 (i 0) k)) (hw : w' = w) (hb : b' = b) (hc : c = i 1) :
    rowLogSoftmax hr w' b' c = head h w b i := by
  subst hw hb hc
  have e : hr = fun k => h (ix2 (i 0) k) := funext hx
  subst e
  rfl

/-- `max` against the starting value of a fold of `max` changes nothing: the fold is already at least its start. -/
theorem max_start_fold {ι : Type} (s : Finset ι) (b : EReal) (f : ι → EReal) :
    max b (s.fold max b f) = s.fold max b f :=
  max_eq_right ((Finset.le_fold_max b).mpr (Or.inl le_rfl))

end Cert.Rows

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibRowReduce.lean ====
/-
  Reductions of an `a × b` array along its columns, read at a row `p`, at the extended reals: the vector unit's
  multi-reduction with an add or a maximum body and the host's one-operand reduce with a maximum body are, at row `p`,
  the finite sum, respectively the fold of `max` from the starting value, over the `b` entries `(p, k)` of that row.
  The reduced index `p` with a column `k` put back is `(p, k)`.
-/
import Idealize.ShloMosaic.PureOps.Ideal.Laws
import Idealize.ShloMosaic.Lib.ValueIdx

noncomputable section

open scoped BigOperators

namespace Idealize.ShloMosaic.ValueIdx

open Idealize.ShloMosaic

/-- The reduced index `p` of an `a × b` array reduced along its columns, with column `k` put back, is `(p, k)`. -/
theorem lift_cols_ix2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A multi-reduction with an add body along the columns, at row `p`: the sum of the row. -/
theorem rowSum_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_cols_ix2 h p k))

/-- A multi-reduction with a maximum body along the columns, at row `p`: the fold of `max` over the row, from the
    accumulator's value. -/
theorem rowMax_ix1 {φ : FTy} {a b : ℕ} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (FloatOps.ofBits φ acc) (fun k => src (ix2 p k)) :=
  (Ideal.multiReduction_maximumf_single src acc h hφ hacc (ix1 p)).trans
    (congrArg ((Finset.univ : Finset (Fin b)).fold max (FloatOps.ofBits φ acc))
      (funext fun k => congrArg src (lift_cols_ix2 h p k)))

/-- The host's reduce with a maximum body along the columns, at row `p`: the fold of `max` over the row, from the
    initial value's one element. -/
theorem hostRowMax_ix1 {φ : FTy} {a b : ℕ} (x : FVec Ideal (⟨2, ![a, b]⟩ : Shape) φ) {u : Shape} (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg ((Finset.univ : Finset (Fin b)).fold max (init (Shape.Idx.first hu)))
      (funext fun k => congrArg x (lift_cols_ix2 h p k)))

end Idealize.ShloMosaic.ValueIdx

end
-- ==== Proof.LibHostRun.lean ====
/-
  Two general facts about a straight line of host operations.
  The contents after a concatenation of two lines are the contents after the second line, from the contents after the first.
  A two-operand concatenate is a function of its two operands' contents only: equal contents, operand by operand, give
  equal results (a congruence rule for the operand list, which is a list of shape-and-array pairs).
-/
import Idealize.ShloMosaic.Lib.StableHlo.Run

noncomputable section

namespace Idealize.ShloMosaic.StableHlo

open Idealize.ShloMosaic

/-- Running `l₁ ++ l₂` is running `l₁`, then `l₂`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A two-operand concatenate with equal operands' contents. -/
theorem concat2_congr {α : Type} {t s₁ s₂ : Shape} (ax : Fin t.rank) (a a' : s₁.Idx → α) (b b' : s₂.Idx → α) (h)
    (ha : a = a') (hb : b = b') :
    concatenate t ax [⟨s₁, a⟩, ⟨s₂, b⟩] h = concatenate t ax [⟨s₁, a'⟩, ⟨s₂, b'⟩] h := by subst ha hb; rfl

end Idealize.ShloMosaic.StableHlo

end
-- ==== Proof.RefTail.lean ====
/-
  The reference from its aggregated features on: its last 19 operations. They read three buffers — the aggregated
  12288 × 16 features h, W2 and b2 — and compute the logits h · W2 + b2 (one dot_general, b2 broadcast to a row and the
  row to every row), then the library log-softmax along the rows: the row maximum (a reduce with a maximum body from
  minus infinity, then one more maximum against minus infinity, which changes nothing), the logits shifted by it, the row
  sums of the exponentials of the shifted logits (a reduce with an add body from zero), their logarithm, and the
  difference. Entry (r, c) is the log-softmax, at c, of the logits of row r of h: the whole-array `head` of (h, W2, b2).
-/
import proofs.«172848_j30485677867423_1_alg».proof.Proof.RefRun
import proofs.«172848_j30485677867423_1_alg».proof.Proof.RowOps
import proofs.«172848_j30485677867423_1_alg».proof.Proof.LibDotIx2
import proofs.«172848_j30485677867423_1_alg».proof.Proof.LibRowReduce
import proofs.«172848_j30485677867423_1_alg».proof.Proof.LibHostRun
import Idealize.ShloMosaic.Lib.Pipeline.Value

set_option maxRecDepth 16384

noncomputable section

open scoped BigOperators

namespace Cert.ReferenceIdeal.Tail

open Cert.ReferenceIdeal Cert.ReferenceIdeal.Gen Cert.ReferenceIdeal.ValueP Cert.Rows
open Idealize.ShloMosaic Idealize.ShloMosaic.TcCoe Idealize.ShloMosaic.StableHlo Idealize.ShloMosaic.ValueIdx Idealize.SL.Sem

/-- The reference's second dot_general is a plain 12288 × 16 by 16 × 12288 product. -/
theorem plainHead : PlainDot dot_S12288x16_S16x12288_S12288x12288_1_0_0_1_n_n where
  rank := rfl
  size := rfl
  l0 := fun j q => by
    unfold DotDims.lhsIdx
    rw [dif_neg (show ¬(0 : Fin S12288x16.rank) ∈ dot_S12288x16_S16x12288_S12288x12288_1_0_0_1_n_n.lhsBatch by decide),
      dif_pos (show (0 : Fin S12288x16.rank) ∈ dot_S12288x16_S16x12288_S12288x12288_1_0_0_1_n_n.lhsNonContracting by decide)]
    rfl
  l1 := fun j q => dot_S12288x16_S16x12288_S12288x12288_1_0_0_1_n_n.lhsIdx_val_of_single rfl j q
  r0 := fun j q => dot_S12288x16_S16x12288_S12288x12288_1_0_0_1_n_n.rhsIdx_val_of_single rfl j q
  r1 := fun j q => by
    unfold DotDims.rhsIdx
    rw [dif_neg (show ¬(1 : Fin S16x12288.rank) ∈ dot_S12288x16_S16x12288_S12288x12288_1_0_0_1_n_n.rhsBatch by decide),
      dif_pos (show (1 : Fin S16x12288.rank) ∈ dot_S12288x16_S16x12288_S12288x12288_1_0_0_1_n_n.rhsNonContracting by decide)]
    rfl

/-- The reference's first dot_general is a plain 12288 × 12288 by 12288 × 16 product. -/
theorem plainFeat : PlainDot dot_S12288x12288_S12288x16_S12288x16_1_0_0_1_n_n where
  rank := rfl
  size := rfl
  l0 := fun j q => by
    unfold DotDims.lhsIdx
    rw [dif_neg (show ¬(0 : Fin S12288x12288.rank) ∈ dot_S12288x12288_S12288x16_S12288x16_1_0_0_1_n_n.lhsBatch by decide),
      dif_pos (show (0 : Fin S12288x12288.rank) ∈ dot_S12288x12288_S12288x16_S12288x16_1_0_0_1_n_n.lhsNonContracting by decide)]
    rfl
  l1 := fun j q => dot_S12288x12288_S12288x16_S12288x16_1_0_0_1_n_n.lhsIdx_val_of_single rfl j q
  r0 := fun j q => dot_S12288x12288_S12288x16_S12288x16_1_0_0_1_n_n.rhsIdx_val_of_single rfl j q
  r1 := fun j q => by
    unfold DotDims.rhsIdx
    rw [dif_neg (show ¬(1 : Fin S12288x16.rank) ∈ dot_S12288x12288_S12288x16_S12288x16_1_0_0_1_n_n.rhsBatch by decide),
      dif_pos (show (1 : Fin S12288x16.rank) ∈ dot_S12288x12288_S12288x16_S12288x16_1_0_0_1_n_n.rhsNonContracting by decide)]
    rfl

/-- The reference's first operation, read at every entry: the whole-array product x · W1. -/
theorem feat_eq (x : FVec Ideal S12288x12288 .f32) (w : FVec Ideal S12288x16 .f32) :
    Host.dotGeneral (F := Ideal) (φ₁ := .f32) (φ₂ := .f32) dot_S12288x12288_S12288x16_S12288x16_1_0_0_1_n_n none x w
      = matProd (M := 12288) (K := 12288) (N := 16) x w := by
  funext i
  obtain ⟨r, c, rfl⟩ : ∃ (r : Fin 12288) (c : Fin 16), i = ix2 r c := ⟨i 0, i 1, eq_ix2 (n0 := 12288) (n1 := 16) i⟩
  simp only [Host.dotGeneral]
  exact dotGeneral_ix2_any plainFeat none _ x w r c

/-! ## The last 19 operations as one function of the three arrays they read -/

/-- The logits: the features against W2, plus b2 on every row. -/
def logitsOf (h : FVec Ideal S12288x16 .f32) (w : FVec Ideal S16x12288 .f32) (b : FVec Ideal S12288 .f32) :
    FVec Ideal S12288x12288 .f32 :=
  addf (Host.dotGeneral (F := Ideal) (φ₁ := .f32) (φ₂ := .f32) dot_S12288x16_S16x12288_S12288x12288_1_0_0_1_n_n none h w)
    (broadcastInDim S12288x12288 ![0, 1] bcast_S1x12288_S12288x12288_0_1 (broadcastInDim S1x12288 ![1] bcast_S12288_S1x12288_1 b))

/-- The row maxima as the library log-softmax takes them. -/
def rowMaxArr (l : FVec Ideal S12288x12288 .f32) : FVec Ideal S12288 .f32 :=
  maximumf (broadcastInDim S12288 ![] bcast_S_S12288 (constant (F := Ideal) S_ .f32 0xFF800000#32))
    (Host.reduce (FloatOps.maximumf (F := Ideal) (φ := .f32)) l (constant (F := Ideal) S_ .f32 0xFF800000#32)
      reducesTo_S12288x12288_S12288_d1 h_S_)

/-- The logits shifted by their row maxima. -/
def shiftedOf (l : FVec Ideal S12288x12288 .f32) : FVec Ideal S12288x12288 .f32 :=
  subf l (broadcastInDim S12288x12288 ![0, 1] bcast_S12288x1_S12288x12288_0_1
    (broadcastInDim S12288x1 ![0] bcast_S12288_S12288x1_0 (rowMaxArr l)))

/-- The row sums of the exponentials of the shifted logits. -/
def rowSumArr (l : FVec Ideal S12288x12288 .f32) : FVec Ideal S12288 .f32 :=
  Host.reduceAdd (Host.exp (shiftedOf l)) (constant (F := Ideal) S_ .f32 0x00000000#32) reducesTo_S12288x12288_S12288_d1 h_S_

/-- The library log-softmax along the rows. -/
def logSoftmaxOf (l : FVec Ideal S12288x12288 .f32) : FVec Ideal S12288x12288 .f32 :=
  subf (shiftedOf l) (broadcastInDim S12288x12288 ![0, 1] bcast_S12288x1_S12288x12288_0_1
    (Host.log (broadcastInDim S12288x1 ![0] bcast_S12288_S12288x1_0 (rowSumArr l))))

/-- Contents written to a typed reference's buffer and read back at its type are unchanged: the two transports cancel. -/
theorem ofBuf_toBuf {T : BufTy} (x : TRef sig T) (v : T.Contents (Elt Ideal)) :
    x.ofBuf (Val := Elt Ideal) (x.toBuf (Val := Elt Ideal) v) = v := by
  simp only [TRef.ofBuf, TRef.toBuf, cast_cast, cast_eq]

/-- At the result's buffer and at the logits' buffer the transport is along a definitional equation. -/
theorem toBuf_result (v : FVec Ideal S12288x12288 .f32) :
    (TRef.of (T := ⟨S12288x12288, .f32⟩) main_v95).toBuf (Val := Elt Ideal) v = v := rfl
theorem ofBuf_logits (v : FVec Ideal S12288x12288 .f32) :
    (TRef.of (T := ⟨S12288x12288, .f32⟩) main_v94).ofBuf (Val := Elt Ideal) v = v := rfl

/-- What the last 19 operations leave in the result's buffer, from any contents `M` of the buffers before them. -/
theorem tail_tree (M : Valuation τ sig (Elt Ideal)) :
    StableHlo.after (List.drop 119 (ops (F := Ideal))) M (Proc.devRef .tc main_v95)
      = logSoftmaxOf (logitsOf (M (Proc.devRef .tc main_v90)) (M (Proc.devRef .tc main_arg4)) (M (Proc.devRef .tc main_arg5))) := by
  simp only [ops, List.drop_succ_cons, List.drop_zero]
  after_results_simp
  simp only [ofBuf_toBuf, toBuf_result, ofBuf_logits]
  rfl

/-! ## Read at an entry -/

/-- The host's pointwise exponential and logarithm, read at an index. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- b2 broadcast to a row and the row to every row, at (r, c): b2 at c. -/
theorem biasBack_apply (b : FVec Ideal S12288 .f32) (r c : Fin 12288) :
    (broadcastInDim S12288x12288 ![0, 1] bcast_S1x12288_S12288x12288_0_1 (broadcastInDim S1x12288 ![1] bcast_S12288_S1x12288_1 b)) (ix2 r c)
      = b (ix1 c) := by
  rw [broadcastInDim_apply _ bcast_S1x12288_S12288x12288_0_1 _ (ix2 r c) (ix2 (0 : Fin 1) c) (fun a => match a with
    | ⟨0, _⟩ => by show 0 = if (1 : Nat) = 1 then 0 else r.val; rw [if_pos rfl]
    | ⟨1, _⟩ => by show c.val = if (12288 : Nat) = 1 then 0 else c.val; rw [if_neg (by decide)])]
  exact broadcastInDim_apply _ bcast_S12288_S1x12288_1 b (ix2 (0 : Fin 1) c) (ix1 c) (fun a => match a with
    | ⟨0, _⟩ => by show c.val = if (12288 : Nat) = 1 then 0 else c.val; rw [if_neg (by decide)])

/-- A length-12288 vector kept as a column and broadcast over the columns, at (r, c): the vector at r. -/
theorem colBack_apply (v : FVec Ideal S12288 .f32) (r c : Fin 12288) :
    (broadcastInDim S12288x12288 ![0, 1] bcast_S12288x1_S12288x12288_0_1 (broadcastInDim S12288x1 ![0] bcast_S12288_S12288x1_0 v)) (ix2 r c)
      = v (ix1 r) := by
  rw [broadcastInDim_apply _ bcast_S12288x1_S12288x12288_0_1 _ (ix2 r c) (ix2 r (0 : Fin 1)) (fun a => match a with
    | ⟨0, _⟩ => by show r.val = if (12288 : Nat) = 1 then 0 else r.val; rw [if_neg (by decide)]
    | ⟨1, _⟩ => by show 0 = if (1 : Nat) = 1 then 0 else c.val; rw [if_pos rfl])]
  exact broadcastInDim_apply _ bcast_S12288_S12288x1_0 v (ix2 r (0 : Fin 1)) (ix1 r) (fun a => match a with
    | ⟨0, _⟩ => by show r.val = if (12288 : Nat) = 1 then 0 else r.val; rw [if_neg (by decide)])

/-- Logit (r, c): row r of the features against column c of W2, plus b2 at c. -/
theorem logitsOf_apply (h : FVec Ideal S12288x16 .f32) (w : FVec Ideal S16x12288 .f32) (b : FVec Ideal S12288 .f32)
    (r c : Fin 12288) :
    logitsOf h w b (ix2 r c) = rowLogit (fun k => h (ix2 r k)) w (fun c' => b (ix1 c')) c := by
  show (Host.dotGeneral (F := Ideal) (φ₁ := .f32) (φ₂ := .f32) dot_S12288x16_S16x12288_S12288x12288_1_0_0_1_n_n none h w) (ix2 r c)
    + (broadcastInDim S12288x12288 ![0, 1] bcast_S1x12288_S12288x12288_0_1 (broadcastInDim S1x12288 ![1] bcast_S12288_S1x12288_1 b)) (ix2 r c) = _
  rw [biasBack_apply]
  simp only [Host.dotGeneral]
  exact congrArg (· + b (ix1 c)) (dotGeneral_ix2_any plainHead none _ h w r c)

/-- The row maximum at row r: the largest entry of the row. -/
theorem rowMaxArr_apply (l : FVec Ideal S12288x12288 .f32) (r : Fin 12288) :
    rowMaxArr l (ix1 r) = rowMaxOf (fun c => l (ix2 r c)) := by
  unfold rowMaxArr
  rw [maximumf_apply,
    broadcastInDim_apply _ bcast_S_S12288 (constant (F := Ideal) S_ .f32 0xFF800000#32) (ix1 r) ix0 (fun a => a.elim0),
    constant_apply,
    hostRowMax_ix1 l (constant (F := Ideal) S_ .f32 0xFF800000#32) reducesTo_S12288x12288_S12288_d1 (by decide) h_S_ r,
    constant_apply]
  exact max_start_fold _ _ _

/-- The shifted logit (r, c). -/
theorem shiftedOf_apply (l : FVec Ideal S12288x12288 .f32) (r c : Fin 12288) :
    shiftedOf l (ix2 r c) = l (ix2 r c) - rowMaxOf (fun c' => l (ix2 r c')) := by
  unfold shiftedOf
  rw [subf_apply, colBack_apply, rowMaxArr_apply]

/-- The row sum of exponentials at row r. -/
theorem rowSumArr_apply (l : FVec Ideal S12288x12288 .f32) (r : Fin 12288) :
    rowSumArr l (ix1 r) = ∑ c' : Fin 12288, Ideal.exp (l (ix2 r c') - rowMaxOf (fun c'' => l (ix2 r c''))) := by
  unfold rowSumArr
  simp only [Host.reduceAdd, Ideal.hostReduceAdd_def]
  rw [Ideal.hostReduceAdd_single reducesTo_S12288x12288_S12288_d1 (by decide), constant_apply, Ideal.ofBits_zero_f32, zero_add]
  refine Finset.sum_congr rfl fun k _ => ?_
  rw [hostExp_apply, lift_cols_ix2, shiftedOf_apply]
  rfl

/-- Entry (r, c) of the library log-softmax: the log-softmax of row r at c. -/
theorem logSoftmaxOf_apply (l : FVec Ideal S12288x12288 .f32) (r c : Fin 12288) :
    logSoftmaxOf l (ix2 r c) = lsmRow (fun c' => l (ix2 r c')) c := by
  unfold logSoftmaxOf
  rw [subf_apply, shiftedOf_apply,
    broadcastInDim_apply _ bcast_S12288x1_S12288x12288_0_1 _ (ix2 r c) (ix2 r (0 : Fin 1)) (fun a => match a with
      | ⟨0, _⟩ => by show r.val = if (12288 : Nat) = 1 then 0 else r.val; rw [if_neg (by decide)]
      | ⟨1, _⟩ => by show 0 = if (1 : Nat) = 1 then 0 else c.val; rw [if_pos rfl]),
    hostLog_apply,
    broadcastInDim_apply _ bcast_S12288_S12288x1_0 (rowSumArr l) (ix2 r (0 : Fin 1)) (ix1 r) (fun a => match a with
      | ⟨0, _⟩ => by show r.val = if (12288 : Nat) = 1 then 0 else r.val; rw [if_neg (by decide)]),
    rowSumArr_apply]
  rfl

/-- The last 19 operations compute the whole-array head of the three arrays they read. -/
theorem tail_eq (h : FVec Ideal S12288x16 .f32) (w : FVec Ideal S16x12288 .f32) (b : FVec Ideal S12288 .f32) :
    logSoftmaxOf (logitsOf h w b) = head (M := 12288) (K := 16) (N := 12288) h w (fun c' => b (ix1 c')) := by
  funext i
  obtain ⟨r, c, rfl⟩ : ∃ (r c : Fin 12288), i = ix2 r c := ⟨i 0, i 1, eq_ix2 (n0 := 12288) (n1 := 12288) i⟩
  rw [logSoftmaxOf_apply]
  exact congrArg (fun l => lsmRow l c) (funext fun c' => logitsOf_apply h w b r c')

end Cert.ReferenceIdeal.Tail

end
-- ==== Proof.RefRunH.lean ====
/-
  The idealized reference's whole run. @main is one straight line of 138 host operations, so every weakly fair
  execution terminates with every buffer at the fold of the operations' results over the launch contents. The line is
  cut in two: the first 119 operations (the first product and the two neighbourhood sums) leave the aggregated 12288 × 16
  features in one buffer and touch neither W2 nor b2; the last 19 compute the head of those three arrays. So the result
  array ends at the whole-array head of (aggregated features, W2, b2), and no argument is written.
-/
import proofs.«172848_j30485677867423_1_alg».proof.Proof.RefRun
import proofs.«172848_j30485677867423_1_alg».proof.Proof.RefTail
import proofs.«172848_j30485677867423_1_alg».proof.Proof.LibHostRun

set_option maxRecDepth 16384

noncomputable section

namespace Cert.ReferenceIdeal.HandRun

open Cert.ReferenceIdeal Cert.ReferenceIdeal.Gen Cert.ReferenceIdeal.ValueP Cert.Rows
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-- The aggregated features: what the first 119 operations leave in the buffer the second product reads. -/
def aggregated (c : Dev nD) : FVec Ideal S12288x16 .f32 :=
  StableHlo.after (List.take 119 (ops (F := Ideal))) (launchContents m c) (Proc.devRef .tc main_v90)

set_option maxHeartbeats 8000000 in
/-- The first 119 operations do not write W2. -/
theorem kept4_pre (c : Dev nD) :
    StableHlo.after (List.take 119 (ops (F := Ideal))) (launchContents m c) (Proc.devRef .tc main_arg4)
      = m ((c.tc : Thread nD τ).loc main_arg4) := by
  simp only [ops, List.take_succ_cons, List.take_zero]
  after_results_simp <;> rfl

set_option maxHeartbeats 8000000 in
/-- The first 119 operations do not write b2. -/
theorem kept5_pre (c : Dev nD) :
    StableHlo.after (List.take 119 (ops (F := Ideal))) (launchContents m c) (Proc.devRef .tc main_arg5)
      = m ((c.tc : Thread nD τ).loc main_arg5) := by
  simp only [ops, List.take_succ_cons, List.take_zero]
  after_results_simp <;> rfl

/-- What the whole line leaves in the result's buffer: the head of the aggregated features, W2 and b2. -/
theorem result (c : Dev nD) :
    StableHlo.after (ops (F := Ideal)) (launchContents m c) (Proc.devRef .tc main_v95)
      = head (M := 12288) (K := 16) (N := 12288) (aggregated m c) (m ((c.tc : Thread nD τ).loc main_arg4))
          (fun c' => m ((c.tc : Thread nD τ).loc main_arg5) (ix1 c')) := by
  have hsplit : StableHlo.after (ops (F := Ideal)) (launchContents m c)
      = StableHlo.after (List.drop 119 (ops (F := Ideal))) (StableHlo.after (List.take 119 (ops (F := Ideal))) (launchContents m c)) := by
    rw [← after_append, List.take_append_drop]
  rw [hsplit, Tail.tail_tree, Tail.tail_eq, kept4_pre, kept5_pre]
  rfl

set_option maxHeartbeats 8000000 in
/-- No operation writes an argument. -/
theorem kept (c : Dev nD) :
    StableHlo.after (ops (F := Ideal)) (launchContents m c) (Proc.devRef .tc main_arg0) = m ((c.tc : Thread nD τ).loc main_arg0)
    ∧ StableHlo.after (ops (F := Ideal)) (launchContents m c) (Proc.devRef .tc main_arg1) = m ((c.tc : Thread nD τ).loc main_arg1)
    ∧ StableHlo.after (ops (F := Ideal)) (launchContents m c) (Proc.devRef .tc main_arg2) = m ((c.tc : Thread nD τ).loc main_arg2)
    ∧ StableHlo.after (ops (F := Ideal)) (launchContents m c) (Proc.devRef .tc main_arg3) = m ((c.tc : Thread nD τ).loc main_arg3)
    ∧ StableHlo.after (ops (F := Ideal)) (launchContents m c) (Proc.devRef .tc main_arg4) = m ((c.tc : Thread nD τ).loc main_arg4)
    ∧ StableHlo.after (ops (F := Ideal)) (launchContents m c) (Proc.devRef .tc main_arg5) = m ((c.tc : Thread nD τ).loc main_arg5) :=
  ⟨by after_results_simp <;> rfl, by after_results_simp <;> rfl, by after_results_simp <;> rfl,
   by after_results_simp <;> rfl, by after_results_simp <;> rfl, by after_results_simp <;> rfl⟩

/-- Every weakly fair execution of the reference's @main terminates, nothing faulting, with the result array at the
    whole-array head of the aggregated features, W2 and b2, and the arguments as launched. -/
theorem run : θ_run defs (onTc (τ := τ) (main (F := Ideal))) ⟨m, fun _ => 0, ρ⟩ fun r => ∀ c : Dev nD,
      r.2.mem ((c.tc : Thread nD τ).loc main_v95)
        = head (M := 12288) (K := 16) (N := 12288) (aggregated m c) (m ((c.tc : Thread nD τ).loc main_arg4))
            (fun c' => m ((c.tc : Thread nD τ).loc main_arg5) (ix1 c'))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result m c),
      (h c main_arg0).trans (kept m c).1,
      (h c main_arg1).trans (kept m c).2.1,
      (h c main_arg2).trans (kept m c).2.2.1,
      (h c main_arg3).trans (kept m c).2.2.2.1,
      (h c main_arg4).trans (kept m c).2.2.2.2.1,
      (h c main_arg5).trans (kept m c).2.2.2.2.2⟩)
    (run_seq scopedRefs_eq scopedSems_eq defs main (fun _ => ops) main_eq (fun _ => ops_sub) m ρ)

end Cert.ReferenceIdeal.HandRun

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KerPay.lean ====
/-
  The two kernel bodies' arithmetic, read at one entry of a block, at the extended reals.

  The first body stores  bf16 (x block) · bf16 (W1)  accumulated from zero: a change of float format is the identity
  here, so entry (p, q) of the stored block is the row p of the x block against column q of W1 (rowDot).

  The second body stores, for its 128 × 16 block h of the aggregated features, the row-wise log-softmax of the logits
  h · W2 + b2: with l = the block of logits, m = the row maxima of l (a multi-reduction with a maximum body along the
  columns, from minus infinity, kept as a trailing unit axis and broadcast back), s = l - m, the stored block is
  s - log (row sums of exp s) broadcast back the same way. Entry (p, q) is therefore the log-softmax of row p of the
  logits at q (lsmRow), and row p of the logits is row p of h against W2 plus the bias (rowLogit).
-/
import proofs.«172848_j30485677867423_1_alg».proof.Proof.Gen.KernelIdeal.Skeleton
import proofs.«172848_j30485677867423_1_alg».proof.Proof.RowOps
import proofs.«172848_j30485677867423_1_alg».proof.Proof.LibDotIx2
import proofs.«172848_j30485677867423_1_alg».proof.Proof.LibColumnLayout
import proofs.«172848_j30485677867423_1_alg».proof.Proof.LibRowReduce
import Idealize.ShloMosaic.Lib.ValueLayout
import Idealize.ShloMosaic.Lib.Pipeline.Value

noncomputable section

open scoped BigOperators

namespace Cert.KernelIdeal.Blocks

open Cert.KernelIdeal Cert.KernelIdeal.Gen Cert.Rows
open Idealize.ShloMosaic Idealize.ShloMosaic.ValueIdx

/-- The first body's matrix-unit product is a plain 256 × 12288 by 12288 × 16 product. -/
theorem plain0 : PlainDot dot_S256x12288_S12288x16_S256x16_1_0_0_1_n_n where
  rank := rfl
  size := rfl
  l0 := fun j q => by
    unfold DotDims.lhsIdx
    rw [dif_neg (show ¬(0 : Fin S256x12288.rank) ∈ dot_S256x12288_S12288x16_S256x16_1_0_0_1_n_n.lhsBatch by decide),
      dif_pos (show (0 : Fin S256x12288.rank) ∈ dot_S256x12288_S12288x16_S256x16_1_0_0_1_n_n.lhsNonContracting by decide)]
    rfl
  l1 := fun j q => dot_S256x12288_S12288x16_S256x16_1_0_0_1_n_n.lhsIdx_val_of_single rfl j q
  r0 := fun j q => dot_S256x12288_S12288x16_S256x16_1_0_0_1_n_n.rhsIdx_val_of_single rfl j q
  r1 := fun j q => by
    unfold DotDims.rhsIdx
    rw [dif_neg (show ¬(1 : Fin S12288x16.rank) ∈ dot_S256x12288_S12288x16_S256x16_1_0_0_1_n_n.rhsBatch by decide),
      dif_pos (show (1 : Fin S12288x16.rank) ∈ dot_S256x12288_S12288x16_S256x16_1_0_0_1_n_n.rhsNonContracting by decide)]
    rfl

/-- The second body's matrix-unit product is a plain 128 × 16 by 16 × 12288 product. -/
theorem plain1 : PlainDot dot_S128x16_S16x12288_S128x12288_1_0_0_1_n_n where
  rank := rfl
  size := rfl
  l0 := fun j q => by
    unfold DotDims.lhsIdx
    rw [dif_neg (show ¬(0 : Fin S128x16.rank) ∈ dot_S128x16_S16x12288_S128x12288_1_0_0_1_n_n.lhsBatch by decide),
      dif_pos (show (0 : Fin S128x16.rank) ∈ dot_S128x16_S16x12288_S128x12288_1_0_0_1_n_n.lhsNonContracting by decide)]
    rfl
  l1 := fun j q => dot_S128x16_S16x12288_S128x12288_1_0_0_1_n_n.lhsIdx_val_of_single rfl j q
  r0 := fun j q => dot_S128x16_S16x12288_S128x12288_1_0_0_1_n_n.rhsIdx_val_of_single rfl j q
  r1 := fun j q => by
    unfold DotDims.rhsIdx
    rw [dif_neg (show ¬(1 : Fin S16x12288.rank) ∈ dot_S128x16_S16x12288_S128x12288_1_0_0_1_n_n.rhsBatch by decide),
      dif_pos (show (1 : Fin S16x12288.rank) ∈ dot_S128x16_S16x12288_S128x12288_1_0_0_1_n_n.rhsNonContracting by decide)]
    rfl

/-- Entry (p, q) of what the first body stores: row p of its x block against column q of W1. -/
theorem pay0_apply (x0 : Vec Ideal S256x12288 .f32) (x1 : Vec Ideal S12288x16 .f32) (p : Fin 256) (q : Fin 16) :
    k0_pay1 (F := Ideal) x0 x1 (ix2 p q) = rowDot (fun k => x0 (ix2 p k)) x1 q :=
  matmul_zero_ix2_any plain0 none (truncf .bf16 x0 bitsLt_bf16_f32) (truncf .bf16 x1 bitsLt_bf16_f32) p q

/-- The block of logits the second body forms: its block of features against W2, plus the bias row on every row. -/
def blockLogits (x0 : Vec Ideal S128x16 .f32) (x1 : Vec Ideal S16x12288 .f32) (x2 : Vec Ideal S1x12288 .f32) :
    FVec Ideal S128x12288 .f32 :=
  addf (matmul dot_S128x16_S16x12288_S128x12288_1_0_0_1_n_n none
      (truncf .bf16 (shapeCast S128x16 x0 shapeCasts_S128x16_S128x16) bitsLt_bf16_f32) (truncf .bf16 x1 bitsLt_bf16_f32)
      (constant S128x12288 .f32 0x00000000#32))
    (broadcastTo S128x12288 (shapeCast S1x12288 x2 shapeCasts_S1x12288_S1x12288) broadcasts_S1x12288_S128x12288)

/-- Entry (p, c) of the block of logits: row p of the features against column c of W2, plus the bias at c. -/
theorem blockLogits_apply (x0 : Vec Ideal S128x16 .f32) (x1 : Vec Ideal S16x12288 .f32) (x2 : Vec Ideal S1x12288 .f32)
    (p : Fin 128) (c : Fin 12288) :
    blockLogits x0 x1 x2 (ix2 p c) = rowLogit (fun k => x0 (ix2 p k)) x1 (fun c' => x2 (ix2 (0 : Fin 1) c')) c := by
  show (matmul (F := Ideal) dot_S128x16_S16x12288_S128x12288_1_0_0_1_n_n none
      (truncf (F := Ideal) .bf16 (shapeCast S128x16 x0 shapeCasts_S128x16_S128x16) bitsLt_bf16_f32)
      (truncf (F := Ideal) .bf16 x1 bitsLt_bf16_f32)
      (constant (F := Ideal) S128x12288 .f32 0x00000000#32)) (ix2 p c)
    + (broadcastTo S128x12288 (shapeCast S1x12288 x2 shapeCasts_S1x12288_S1x12288) broadcasts_S1x12288_S128x12288) (ix2 p c) = _
  rw [shapeCast_self, shapeCast_self, broadcastTo_1b_ab_apply]
  exact congrArg (· + x2 (ix2 (0 : Fin 1) c))
    (matmul_zero_ix2_any plain1 none (truncf .bf16 x0 bitsLt_bf16_f32) (truncf .bf16 x1 bitsLt_bf16_f32) p c)

/-- The row-wise log-softmax of a 128 × 12288 block as the second body computes it. -/
def blockLogSoftmax (l : FVec Ideal S128x12288 .f32) : FVec Ideal S128x12288 .f32 :=
  subf
    (subf l (broadcastTo S128x12288 (shapeCast S128x1
      (multiReduction .maximumf [1] S128 l 0xFF800000#32 reduces_S128x12288_S128 (.inl rfl) rfl) shapeCasts_S128_S128x1)
      broadcasts_S128x1_S128x12288))
    (broadcastTo S128x12288 (log (shapeCast S128x1
      (multiReduction .add [1] S128
        (exp (subf l (broadcastTo S128x12288 (shapeCast S128x1
          (multiReduction .maximumf [1] S128 l 0xFF800000#32 reduces_S128x12288_S128 (.inl rfl) rfl) shapeCasts_S128_S128x1)
          broadcasts_S128x1_S128x12288)))
        0x00000000#32 reduces_S128x12288_S128 (.inl rfl) rfl) shapeCasts_S128_S128x1)) broadcasts_S128x1_S128x12288)

/-- What the second body stores is that log-softmax of its block of logits. -/
theorem pay1_eq (x0 : Vec Ideal S128x16 .f32) (x1 : Vec Ideal S16x12288 .f32) (x2 : Vec Ideal S1x12288 .f32) :
    k1_pay1 (F := Ideal) x0 x1 x2 = blockLogSoftmax (blockLogits x0 x1 x2) := rfl

/-- The row maxima, kept as a column and broadcast back, read at (p, q): the largest entry of row p. -/
theorem rowMaxBack_apply (l : FVec Ideal S128x12288 .f32) (p : Fin 128) (q : Fin 12288) :
    (broadcastTo S128x12288 (shapeCast S128x1
      (multiReduction .maximumf [1] S128 l 0xFF800000#32 reduces_S128x12288_S128 (.inl rfl) rfl) shapeCasts_S128_S128x1)
      broadcasts_S128x1_S128x12288) (ix2 p q) = rowMaxOf (fun c => l (ix2 p c)) := by
  rw [broadcastTo_a1_ab_apply, shapeCast_a_a1_apply]
  exact rowMax_ix1 l 0xFF800000#32 reduces_S128x12288_S128 (.inl rfl) rfl p

/-- Entry (p, q) of the block log-softmax: the log-softmax of row p at q. -/
theorem blockLogSoftmax_apply (l : FVec Ideal S128x12288 .f32) (p : Fin 128) (q : Fin 12288) :
    blockLogSoftmax l (ix2 p q) = lsmRow (fun c => l (ix2 p c)) q := by
  show (l (ix2 p q) - (broadcastTo S128x12288 (shapeCast S128x1
      (multiReduction .maximumf [1] S128 l 0xFF800000#32 reduces_S128x12288_S128 (.inl rfl) rfl) shapeCasts_S128_S128x1)
      broadcasts_S128x1_S128x12288) (ix2 p q))
    - (broadcastTo S128x12288 (log (shapeCast S128x1
      (multiReduction .add [1] S128
        (exp (subf l (broadcastTo S128x12288 (shapeCast S128x1
          (multiReduction .maximumf [1] S128 l 0xFF800000#32 reduces_S128x12288_S128 (.inl rfl) rfl) shapeCasts_S128_S128x1)
          broadcasts_S128x1_S128x12288)))
        0x00000000#32 reduces_S128x12288_S128 (.inl rfl) rfl) shapeCasts_S128_S128x1)) broadcasts_S128x1_S128x12288) (ix2 p q) = _
  rw [rowMaxBack_apply, broadcastTo_a1_ab_apply]
  show _ - Ideal.log ((shapeCast S128x1
      (multiReduction .add [1] S128
        (exp (subf l (broadcastTo S128x12288 (shapeCast S128x1
          (multiReduction .maximumf [1] S128 l 0xFF800000#32 reduces_S128x12288_S128 (.inl rfl) rfl) shapeCasts_S128_S128x1)
          broadcasts_S128x1_S128x12288)))
        0x00000000#32 reduces_S128x12288_S128 (.inl rfl) rfl) shapeCasts_S128_S128x1) (ix2 p (0 : Fin 1))) = _
  rw [shapeCast_a_a1_apply]
  refine congrArg (fun z => (l (ix2 p q) - rowMaxOf (fun c => l (ix2 p c))) - Ideal.log z) ?_
  refine (rowSum_ix1 _ 0x00000000#32 reduces_S128x12288_S128 (.inl rfl) rfl p).trans ?_
  refine Finset.sum_congr rfl fun c _ => ?_
  show Ideal.exp (l (ix2 p c) - (broadcastTo S128x12288 (shapeCast S128x1
      (multiReduction .maximumf [1] S128 l 0xFF800000#32 reduces_S128x12288_S128 (.inl rfl) rfl) shapeCasts_S128_S128x1)
      broadcasts_S128x1_S128x12288) (ix2 p c)) = _
  rw [rowMaxBack_apply]

/-- Entry (p, q) of what the second body stores: the log-softmax, at q, of the logits of row p of its block of features. -/
theorem pay1_apply (x0 : Vec Ideal S128x16 .f32) (x1 : Vec Ideal S16x12288 .f32) (x2 : Vec Ideal S1x12288 .f32)
    (p : Fin 128) (q : Fin 12288) :
    k1_pay1 (F := Ideal) x0 x1 x2 (ix2 p q)
      = rowLogSoftmax (fun k => x0 (ix2 p k)) x1 (fun c => x2 (ix2 (0 : Fin 1) c)) q := by
  rw [pay1_eq, blockLogSoftmax_apply]
  exact congrArg (fun l => lsmRow l q) (funext fun c => blockLogits_apply x0 x1 x2 p c)

end Cert.KernelIdeal.Blocks

end
-- ==== Proof.Region1.lean ====
/-
  The second pallas_call, from blocks to the array. Its grid has 96 points; at point t the feature window is rows
  128 t … 128 t + 127 of the aggregated 12288 × 16 features, the W2 window is all of W2, the bias window is the whole
  1 × 12288 bias row, and the output window is rows 128 t … 128 t + 127 of the 12288 × 12288 result (all columns, so a
  row's maximum and sum never leave the block). What point t writes back is, entry by entry, the log-softmax of the
  logits of a row of the feature block, that is block t of the one whole-array head; the 96 blocks tile the rows.
-/
import proofs.«172848_j30485677867423_1_alg».proof.Proof.Gen.KernelIdeal.Frame
import proofs.«172848_j30485677867423_1_alg».proof.Proof.KerPay
import Idealize.ShloMosaic.Lib.Pipeline.Value

set_option maxRecDepth 16384

noncomputable section

open scoped BigOperators

namespace Cert.KernelIdeal.Region1

open Cert.KernelIdeal Cert.KernelIdeal.Gen Cert.KernelIdeal.Blocks Cert.Rows
open Idealize.ShloMosaic Idealize.ShloMosaic.TcCoe Idealize.ShloMosaic.ValueIdx Idealize.SL.Sem
open Idealize.ShloMosaic.Pipeline (Dat Cfg Window)

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and the result windows move down by one block of rows per point,
    the W2 and bias windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array head of the feature, W2 and bias arrays as the region
    finds them. -/
theorem flushed_eq (c : Dev nD) (t : Fin cfg1.N) :
    (dat1 V c).flushed 3 t = ((cfg1.win 3).blk t).view.read (Elt Ideal)
      (head (M := 12288) (K := 16) (N := 12288) (V c main_v90) (V c main_arg4) (fun c' => V c main_v91 (ix2 (0 : Fin 1) c'))) := by
  show (cfg1.win 3).cut (grid1.coords t) ((dat1 V c).after 3 t) = _
  rw [after1_3]
  unfold out1_3
  rw [View.canon_unit_zero hz]
  simp only [View.ld_unit_zero (S := S128x16) hz, View.ld_unit_zero (S := S16x12288) hz, View.ld_unit_zero (S := S1x12288) hz]
  obtain ⟨e00, e01, e10, e11, e20, e21, e30, e31⟩ := idx_facts t
  funext j
  obtain ⟨p, q, rfl⟩ : ∃ (p : Fin 128) (q : Fin 12288), j = ix2 p q := ⟨j 0, j 1, eq_ix2 (n0 := 128) (n1 := 12288) j⟩
  show k1_pay1 (F := Ideal) (iblk1 V c 0 t) (iblk1 V c 1 t) (iblk1 V c 2 t) (ix2 p q)
    = head (M := 12288) (K := 16) (N := 12288) (V c main_v90) (V c main_arg4) (fun c' => V c main_v91 (ix2 (0 : Fin 1) c'))
        (((cfg1.win 3).blk t).view.emb (ix2 p q))
  rw [pay1_apply]
  refine head_of_row (M := 12288) (K := 16) (N := 12288) _ _ _ _ _ _ _ _ (fun k => ?_) ?_ ?_ ?_
  · show V c main_v90 (((cfg1.win 0).blk t).view.emb (ix2 p k))
      = V c main_v90 (ix2 ((((cfg1.win 3).blk t).view.emb (ix2 p q)) 0) k)
    refine congrArg (V c main_v90) (funext fun a => Fin.ext ?_)
    match a with
    | ⟨0, _⟩ => show win1_0.index t (0 : Fin 2) * 128 + 1 * p.val = win1_3.index t (0 : Fin 2) * 128 + 1 * p.val; omega
    | ⟨1, _⟩ => show win1_0.index t (1 : Fin 2) * 16 + 1 * k.val = k.val; omega
  · funext y
    show V c main_arg4 (((cfg1.win 1).blk t).view.emb y) = V c main_arg4 y
    refine congrArg (V c main_arg4) (funext fun a => Fin.ext ?_)
    match a with
    | ⟨0, _⟩ => show win1_1.index t (0 : Fin 2) * 16 + 1 * (y 0).val = (y 0).val; omega
    | ⟨1, _⟩ => show win1_1.index t (1 : Fin 2) * 12288 + 1 * (y 1).val = (y 1).val; omega
  · funext c'
    show V c main_v91 (((cfg1.win 2).blk t).view.emb (ix2 (0 : Fin 1) c')) = V c main_v91 (ix2 (0 : Fin 1) c')
    refine congrArg (V c main_v91) (funext fun a => Fin.ext ?_)
    match a with
    | ⟨0, _⟩ => show win1_2.index t (0 : Fin 2) * 1 + 1 * 0 = 0; omega
    | ⟨1, _⟩ => show win1_2.index t (1 : Fin 2) * 12288 + 1 * c'.val = c'.val; omega
  · exact Fin.ext (show q.val = win1_3.index t (1 : Fin 2) * 12288 + 1 * q.val by omega)

/-- An index of the result array is in point `t`'s block iff each coordinate is in the block's range on its axis. -/
theorem mem_blk (t : Fin cfg1.N) (i : S12288x12288.Idx) :
    i ∈ ((cfg1.win 3).blk t).view.set ↔ ∀ a : Fin 2, win1_3.index t a * S128x12288.size a ≤ (i a).val
      ∧ (i a).val < win1_3.index t a * S128x12288.size a + S128x12288.size a := by
  show i ∈ ((View.whole main_v92).slice (win1_3.rect t)).set ↔ _
  rw [View.set_slice_whole, Rect.mem_set_unit]
  exact Iff.rfl

/-- Every row of the result lies in the block of the point numbered by the row's quotient by 128. -/
theorem cover (i : S12288x12288.Idx) :
    ∃ t : Fin cfg1.N, (cfg1.win 3).flush t = true ∧ i ∈ ((cfg1.win 3).blk t).view.set := by
  have hi0 : (i 0).val < 12288 := (i 0).isLt
  have hi1 : (i 1).val < 12288 := (i 1).isLt
  have hN : grid1.N = 96 := N_1
  obtain ⟨t, ht⟩ : ∃ t : Fin cfg1.N, t.val = (i 0).val / 128 :=
    ⟨⟨(i 0).val / 128, by show _ < grid1.N; rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 128 ≤ (i 0).val ∧ (i 0).val < win1_3.index t (0 : Fin 2) * 128 + 128
    omega
  | ⟨1, _⟩ =>
    show win1_3.index t (1 : Fin 2) * 12288 ≤ (i 1).val ∧ (i 1).val < win1_3.index t (1 : Fin 2) * 12288 + 12288
    omega

/-- After the region the result array is the whole-array head of the feature, W2 and bias arrays the region was
    entered with. -/
theorem final (c : Dev nD) :
    (dat1 V c).arrAt 3 cfg1.N
      = head (M := 12288) (K := 16) (N := 12288) (V c main_v90) (V c main_arg4) (fun c' => V c main_v91 (ix2 (0 : Fin 1) c')) :=
  (dat1 V c).arrAt_eq_of_cover 3 _ (fun t _ => flushed_eq V c t) (cover)

end Cert.KernelIdeal.Region1

end
-- ==== Proof.KerValue.lean ====
/-
  What the idealized kernel's result array holds at the end: the whole-array head of three arrays as its second
  pallas_call finds them — the aggregated features (the buffer the host operations between the two calls leave), W2 (an
  argument, as launched) and the bias row, which is b2 reshaped from [12288] to [1, 12288], so that its entry (0, c) is b2
  at c.
-/
import proofs.«172848_j30485677867423_1_alg».proof.Proof.Gen.KernelIdeal.Frame
import proofs.«172848_j30485677867423_1_alg».proof.Proof.KerRun
import proofs.«172848_j30485677867423_1_alg».proof.Proof.Region1
import Idealize.ShloMosaic.Lib.StableHlo.Run
import Idealize.ShloMosaic.Lib.ValueLayout

set_option maxRecDepth 16384

noncomputable section

namespace Cert.KernelIdeal.Result

open Cert.KernelIdeal Cert.KernelIdeal.Gen Cert.Rows
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-- W2 when the second call is entered is W2 as launched: nothing before writes it. -/
theorem V8_arg4 (c : Dev nD) : V8 m ρ c main_arg4 = m ((c : Thread nD τ).loc main_arg4) :=
  (((W9_arr m ρ c 1).trans (((dat1 (V8 m ρ) c).arrAt_in 1 rfl _).trans (A_eq1 (V8 m ρ) c 1))).symm).trans
    (W9_main_arg4 m ρ c)

set_option maxHeartbeats 4000000 in
/-- The bias row when the second call is entered: b2 as launched, reshaped to one row. -/
theorem V8_bias (c : Dev nD) :
    V8 m ρ c main_v91
      = fun i => shapeCast S1x12288 (m ((c : Thread nD τ).loc main_arg5)) shapeCasts_S12288_S1x12288 i := by
  show StableHlo.after hostOps1_6 (StableHlo.after hostOps1_5 (StableHlo.after hostOps1_4 (StableHlo.after hostOps1_3
    (StableHlo.after hostOps1_2 (StableHlo.after hostOps1_1 (StableHlo.after hostOps1 (W1 m ρ c)))))))
      (Proc.devRef .tc main_v91) = _
  after_results_simp
  rw [W1_of_ne m ρ c main_arg5 (by decide)]
  rfl

/-- The result array at the end: the head of the aggregated features, W2 and b2. -/
theorem result (c : Dev nD) :
    W9 m ρ c (Proc.devRef .tc main_v92)
      = head (M := 12288) (K := 16) (N := 12288) (V8 m ρ c main_v90) (m ((c : Thread nD τ).loc main_arg4))
          (fun c' => m ((c : Thread nD τ).loc main_arg5) (ix1 c')) := by
  rw [ResultRun.W9_result, Region1.final (V8 m ρ) c, V8_arg4]
  refine congrArg (head (M := 12288) (K := 16) (N := 12288) (V8 m ρ c main_v90) (m ((c : Thread nD τ).loc main_arg4)))
    (funext fun c' => ?_)
  rw [V8_bias]
  exact shapeCast_a_1a_apply _ _ (0 : Fin 1) c'

end Cert.KernelIdeal.Result

end
-- ==== Proof.Region0.lean ====
/-
  The first pallas_call, from blocks to the array. Its grid has 48 points; at point t the x window is rows
  256 t … 256 t + 255 of x (all 12288 columns), the W1 window is all of W1, and the output window is rows
  256 t … 256 t + 255 of the 12288 × 16 result. What point t writes back is, entry by entry, the row of the x block
  against W1, that is block t of the one whole-array product x · W1; the 48 blocks tile the result's rows, so after the
  region the result array IS x · W1 of the arrays the region was entered with.
-/
import proofs.«172848_j30485677867423_1_alg».proof.Proof.Gen.KernelIdeal.Frame
import proofs.«172848_j30485677867423_1_alg».proof.Proof.KerPay
import Idealize.ShloMosaic.Lib.Pipeline.Value

set_option maxRecDepth 16384

noncomputable section

open scoped BigOperators

namespace Cert.KernelIdeal.Region0

open Cert.KernelIdeal Cert.KernelIdeal.Gen Cert.KernelIdeal.Blocks Cert.Rows
open Idealize.ShloMosaic Idealize.ShloMosaic.TcCoe Idealize.ShloMosaic.ValueIdx Idealize.SL.Sem
open Idealize.ShloMosaic.Pipeline (Dat Cfg Window)

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the x and the result windows move down by one block of rows per point, the
    W1 window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the x and W1 arrays as the region finds them. -/
theorem flushed_eq (c : Dev nD) (t : Fin cfg0.N) :
    (dat0 V c).flushed 2 t = ((cfg0.win 2).blk t).view.read (Elt Ideal)
      (matProd (M := 12288) (K := 12288) (N := 16) (V c main_arg0) (V c main_arg2)) := by
  show (cfg0.win 2).cut (grid0.coords t) ((dat0 V c).after 2 t) = _
  rw [after0_2]
  unfold out0_2
  rw [View.canon_unit_zero hz]
  simp only [View.ld_unit_zero (S := S256x12288) hz, View.ld_unit_zero (S := S12288x16) hz]
  obtain ⟨e00, e01, e10, e11, e20, e21⟩ := idx_facts t
  funext j
  obtain ⟨p, q, rfl⟩ : ∃ (p : Fin 256) (q : Fin 16), j = ix2 p q := ⟨j 0, j 1, eq_ix2 (n0 := 256) (n1 := 16) j⟩
  show k0_pay1 (F := Ideal) (iblk0 V c 0 t) (iblk0 V c 1 t) (ix2 p q)
    = matProd (M := 12288) (K := 12288) (N := 16) (V c main_arg0) (V c main_arg2) (((cfg0.win 2).blk t).view.emb (ix2 p q))
  rw [pay0_apply]
  refine matProd_of_row (M := 12288) (K := 12288) (N := 16) _ _ _ _ _ _ (fun k => ?_) ?_ ?_
  · show V c main_arg0 (((cfg0.win 0).blk t).view.emb (ix2 p k))
      = V c main_arg0 (ix2 ((((cfg0.win 2).blk t).view.emb (ix2 p q)) 0) k)
    refine congrArg (V c main_arg0) (funext fun a => Fin.ext ?_)
    match a with
    | ⟨0, _⟩ => show win0_0.index t (0 : Fin 2) * 256 + 1 * p.val = win0_2.index t (0 : Fin 2) * 256 + 1 * p.val; omega
    | ⟨1, _⟩ => show win0_0.index t (1 : Fin 2) * 12288 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 12288 + 1 * (y 0).val = (y 0).val; omega
    | ⟨1, _⟩ => show win0_1.index t (1 : Fin 2) * 16 + 1 * (y 1).val = (y 1).val; omega
  · exact Fin.ext (show q.val = win0_2.index t (1 : Fin 2) * 16 + 1 * q.val by omega)

/-- An index of the result array is in point `t`'s block iff each coordinate is in the block's range on its axis. -/
theorem mem_blk (t : Fin cfg0.N) (i : S12288x16.Idx) :
    i ∈ ((cfg0.win 2).blk t).view.set ↔ ∀ a : Fin 2, win0_2.index t a * S256x16.size a ≤ (i a).val
      ∧ (i a).val < win0_2.index t a * S256x16.size a + S256x16.size a := by
  show i ∈ ((View.whole main_v0).slice (win0_2.rect t)).set ↔ _
  rw [View.set_slice_whole, Rect.mem_set_unit]
  exact Iff.rfl

/-- Every row of the result lies in the block of the point numbered by the row's quotient by 256. -/
theorem cover (i : S12288x16.Idx) :
    ∃ t : Fin cfg0.N, (cfg0.win 2).flush t = true ∧ i ∈ ((cfg0.win 2).blk t).view.set := by
  have hi0 : (i 0).val < 12288 := (i 0).isLt
  have hi1 : (i 1).val < 16 := (i 1).isLt
  have hN : grid0.N = 48 := N_0
  obtain ⟨t, ht⟩ : ∃ t : Fin cfg0.N, t.val = (i 0).val / 256 :=
    ⟨⟨(i 0).val / 256, by show _ < grid0.N; rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 16 ≤ (i 1).val ∧ (i 1).val < win0_2.index t (1 : Fin 2) * 16 + 16
    omega

/-- After the region the result array is the whole product of the x and W1 arrays the region was entered with. -/
theorem final (c : Dev nD) :
    (dat0 V c).arrAt 2 cfg0.N = matProd (M := 12288) (K := 12288) (N := 16) (V c main_arg0) (V c main_arg2) :=
  (dat0 V c).arrAt_eq_of_cover 2 _ (fun t _ => flushed_eq V c t) (cover)

end Cert.KernelIdeal.Region0

end
-- ==== Proof.Cross.lean ====
/-
  Between the two matrix products both programs apply the SAME host computation to the same three arrays: the first
  product h1 (12288 × 16), the edge list, and the bias b1. It is the neighbourhood sum twice: append the 12288 self
  loops to the edge list, count each node's incoming edges with a scatter-add of ones, take dinv = rsqrt (degree) where
  the degree is positive and 0 elsewhere, weigh edge e by dinv (src e) * dinv (dst e), gather the rows h (src e), scale
  them, scatter-add them at dst e; then add b1, clamp below at 0 (relu), and do the same sum again. In the kernel's
  program these are 117 host operations in seven stretches after its first pallas_call; in the reference they are
  operations 2 … 119, after its first dot_general. Read as a composed term of what the operations find in their input
  buffers, the two are one term: nothing of it is opened here, the two compositions are only laid side by side.
-/
import proofs.«172848_j30485677867423_1_alg».proof.Proof.Gen.KernelIdeal.Frame
import proofs.«172848_j30485677867423_1_alg».proof.Proof.RefRun
import proofs.«172848_j30485677867423_1_alg».proof.Proof.LibHostRun
import Idealize.ShloMosaic.PureOps.Ideal

set_option maxRecDepth 16384

noncomputable section

namespace Cert.Cross

open Idealize.ShloMosaic Idealize.ShloMosaic.TcCoe Idealize.ShloMosaic.StableHlo Idealize.SL.Sem

attribute [local congr] concat2_congr

set_option maxHeartbeats 16000000 in
/-- From buffer contents `W` of the kernel's program and `L` of the reference's that agree on the edge list and on
    b1, and with the kernel's first result equal to the reference's first product of its arguments: what the kernel's
    seven stretches of host operations leave in the buffer its second call reads is what the reference's first 119
    operations leave in the buffer its second product reads. -/
theorem glue (W : Valuation Cert.KernelIdeal.τ Cert.KernelIdeal.sig (Elt Ideal))
    (L : Valuation Cert.ReferenceIdeal.τ Cert.ReferenceIdeal.sig (Elt Ideal))
    (h0 : W (Proc.devRef .tc Cert.KernelIdeal.main_v0)
      = Host.dotGeneral (F := Ideal) (φ₁ := .f32) (φ₂ := .f32) Cert.ReferenceIdeal.dot_S12288x12288_S12288x16_S12288x16_1_0_0_1_n_n none
          (L (Proc.devRef .tc Cert.ReferenceIdeal.main_arg0)) (L (Proc.devRef .tc Cert.ReferenceIdeal.main_arg2)))
    (h1 : W (Proc.devRef .tc Cert.KernelIdeal.main_arg1) = L (Proc.devRef .tc Cert.ReferenceIdeal.main_arg1))
    (h3 : W (Proc.devRef .tc Cert.KernelIdeal.main_arg3) = L (Proc.devRef .tc Cert.ReferenceIdeal.main_arg3)) :
    StableHlo.after Cert.KernelIdeal.Gen.hostOps1_6 (StableHlo.after Cert.KernelIdeal.Gen.hostOps1_5
      (StableHlo.after Cert.KernelIdeal.Gen.hostOps1_4 (StableHlo.after Cert.KernelIdeal.Gen.hostOps1_3
      (StableHlo.after Cert.KernelIdeal.Gen.hostOps1_2 (StableHlo.after Cert.KernelIdeal.Gen.hostOps1_1
      (StableHlo.after Cert.KernelIdeal.Gen.hostOps1 W)))))) (Proc.devRef .tc Cert.KernelIdeal.main_v90)
      = StableHlo.after (List.take 119 (Cert.ReferenceIdeal.ValueP.ops (F := Ideal))) L
          (Proc.devRef .tc Cert.ReferenceIdeal.main_v90) := by
  simp only [Cert.ReferenceIdeal.ValueP.ops, List.take_succ_cons, List.take_zero]
  after_results_simp
  rw [h0, h1, h3]
  rfl

end Cert.Cross

end
-- ==== Proof.Bridge.lean ====
/-
  The two programs meet. From memories that agree on the six arguments:
    * after its first pallas_call the kernel's feature buffer holds x · W1, which is what the reference's first
      dot_general computes from its own (equal) x and W1;
    * the edge list and b1 are arguments, equal in the two memories, and neither program writes them;
    * hence what the kernel's host operations between the calls leave for its second call is the reference's aggregated
      features (the shared host computation applied to equal inputs);
    * the kernel's second call then stores the whole-array head of (those features, W2, b2), with W2 and b2 again equal
      arguments: the array the reference's last 19 operations compute.
-/
import proofs.«172848_j30485677867423_1_alg».proof.Proof.KerValue
import proofs.«172848_j30485677867423_1_alg».proof.Proof.Region0
import proofs.«172848_j30485677867423_1_alg».proof.Proof.Cross
import proofs.«172848_j30485677867423_1_alg».proof.Proof.RefRunH

set_option maxRecDepth 16384

noncomputable section

namespace Cert.Bridge

open Cert.Rows
open Idealize.ShloMosaic Idealize.ShloMosaic.TcCoe Idealize.ShloMosaic.StableHlo Idealize.ShloMosaic.ValueIdx Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The kernel's aggregated features are the reference's, from memories that agree on x, the edge list, W1 and b1. -/
theorem aggregated_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.KernelIdeal.Gen.V8 m ρ c Cert.KernelIdeal.main_v90 = Cert.ReferenceIdeal.HandRun.aggregated m' c := by
  refine Cert.Cross.glue (Cert.KernelIdeal.Gen.W1 m ρ c) (launchContents m' c) ?_ ?_ ?_
  · refine ((Cert.KernelIdeal.Gen.W1_arr m ρ c 2).trans (Cert.KernelIdeal.Region0.final (Cert.KernelIdeal.Gen.V0 m ρ) c)).trans ?_
    refine (Eq.trans ?_ (Cert.ReferenceIdeal.Tail.feat_eq _ _).symm)
    show matProd (M := 12288) (K := 12288) (N := 16) (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
      = matProd (M := 12288) (K := 12288) (N := 16) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
    rw [h0, h2]
  · exact (Cert.KernelIdeal.Gen.W1_of_ne m ρ c Cert.KernelIdeal.main_arg1 (by decide)).trans h1.symm
  · exact (Cert.KernelIdeal.Gen.W1_of_ne m ρ c Cert.KernelIdeal.main_arg3 (by decide)).trans h3.symm

/-- The kernel's result array ends at the array the reference's run ends at. -/
theorem result_eq (c : Dev Cert.KernelIdeal.nD)
    (h : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)) :
    Cert.KernelIdeal.Gen.W9 m ρ c (Proc.devRef .tc Cert.KernelIdeal.main_v92)
      = head (M := 12288) (K := 16) (N := 12288) (Cert.ReferenceIdeal.HandRun.aggregated m' c)
          (m' ((c.tc : Thread Cert.ReferenceIdeal.nD Cert.ReferenceIdeal.τ).loc Cert.ReferenceIdeal.main_arg4))
          (fun c' => m' ((c.tc : Thread Cert.ReferenceIdeal.nD Cert.ReferenceIdeal.τ).loc Cert.ReferenceIdeal.main_arg5) (ix1 c')) := by
  rw [Cert.KernelIdeal.Result.result m ρ c, aggregated_eq m ρ m' c h.1 h.2.1 h.2.2.1 h.2.2.2.1, h.2.2.2.2.1, h.2.2.2.2.2]

end Cert.Bridge

end
-- ==== Proof.lean ====
/-
  Two layers of a graph convolution network on 12288 nodes, as a Pallas kernel and as plain jnp:
      out = log_softmax ( A (relu (A (x · W1) + b1)) · W2 + b2 )   along the rows,
  where A is the neighbourhood sum of the graph given by a list of 393216 edges, with self loops added and each edge
  weighted by the inverse square roots of its two endpoints' degrees. The kernel computes x · W1 in a first pallas_call
  (48 blocks of 256 rows, bf16 operands into an f32 accumulator) and the matrix product with W2, the bias and the row-wise
  log-softmax in a second one (96 blocks of 128 rows, whole rows per block); A, the bias b1 and the relu are host
  operations between the two calls, the same as the reference's.

  Read at the extended reals, where a change of float format is the identity and sums are exact:
    * the first call's result is the whole product x · W1, row block by row block, which is the reference's first
      dot_general (a finite sum over the inner index on both sides);
    * the host operations in between are one and the same composed function of (x · W1, edge list, b1) in both programs,
      and are never opened;
    * the second call's result is, row by row, the log-softmax of the logits of a row of the aggregated features: the
      logits minus their maximum (a fold of max from minus infinity), minus the log of the sum of the exponentials of the
      shifted logits. The reference's log-softmax is the same formula, with one more maximum against minus infinity that
      changes nothing.
  Finite sums of extended reals are sums in a commutative monoid and the fold of max does not depend on the order, so the
  two results are equal entry by entry for all inputs: the finiteness of the inputs is not used.

  The idealization of the kernel rewrote nothing, so that conjunct is trivial. The frames of the two kernel programs are the
  generated ones; the reference's frame is its run with the result dropped.
-/
import proofs.«172848_j30485677867423_1_alg».proof.Defs
import proofs.«172848_j30485677867423_1_alg».proof.Proof.Gen.Kernel
import proofs.«172848_j30485677867423_1_alg».proof.Proof.Gen.Kernel.Skeleton
import proofs.«172848_j30485677867423_1_alg».proof.Proof.Gen.Kernel.Launch
import proofs.«172848_j30485677867423_1_alg».proof.Proof.Gen.Kernel.Points
import proofs.«172848_j30485677867423_1_alg».proof.Proof.Gen.Kernel.Frame
import proofs.«172848_j30485677867423_1_alg».proof.Proof.Gen.KernelIdeal
import proofs.«172848_j30485677867423_1_alg».proof.Proof.Gen.KernelIdeal.Skeleton
import proofs.«172848_j30485677867423_1_alg».proof.Proof.Gen.KernelIdeal.Launch
import proofs.«172848_j30485677867423_1_alg».proof.Proof.Gen.KernelIdeal.Points
import proofs.«172848_j30485677867423_1_alg».proof.Proof.Gen.KernelIdeal.Frame
import proofs.«172848_j30485677867423_1_alg».proof.Proof.Gen.ReferenceIdeal
import proofs.«172848_j30485677867423_1_alg».proof.Proof.Gen.Pre_finite_inputs
import proofs.«172848_j30485677867423_1_alg».proof.Proof.KerRun
import proofs.«172848_j30485677867423_1_alg».proof.Proof.RefRunH
import proofs.«172848_j30485677867423_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote no operation. -/
theorem preserves : Cert.preserves_Kernel_KernelIdeal := trivial

/-- From memories that agree on the six arguments both idealized programs end with the same result array: the
    whole-array head of (the reference's aggregated features, W2, b2). -/
theorem algebraic : Cert.algebraic_KernelIdeal_ReferenceIdeal := by
  intro m ρ m' ρ' _ hagree
  refine ⟨fun c => Cert.Rows.head (M := 12288) (K := 16) (N := 12288) (Cert.ReferenceIdeal.HandRun.aggregated m' c)
      (m' ((c.tc : Thread Cert.ReferenceIdeal.nD Cert.ReferenceIdeal.τ).loc Cert.ReferenceIdeal.main_arg4))
      (fun c' => m' ((c.tc : Thread Cert.ReferenceIdeal.nD Cert.ReferenceIdeal.τ).loc Cert.ReferenceIdeal.main_arg5) (ValueIdx.ix1 c')),
    ?_, Cert.ReferenceIdeal.HandRun.run m' ρ'⟩
  exact (θ_run Cert.KernelIdeal.defs _ _).mono
    (fun r h c => ⟨(h c).1.trans (Cert.Bridge.result_eq m ρ m' c (hagree c)), (h c).2⟩)
    (Cert.KernelIdeal.ResultRun.run_res (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
